-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 93
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x64, .f32⟩
  | .hbm, ⟨92, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program, run: its @main is three matrix-product regions among stretches of host operations. Every weakly
  fair execution terminates, and in the final state every buffer that is not scoped to a region holds the contents `Gen.W9`: the
  launch memory folded through the stretches (each operation's result written to its buffer) and through the regions (each
  region's result array at what its ten write-backs leave, every other buffer as the region found it).
-/
import proofs.«135770_j71751723646993_1_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same read at one TensorCore buffer that no region scopes. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W9 m ρ c (Proc.devRef .tc b)) :=
  (θ_run defs _ _).mono (fun r h c => h c _ (mem_uc b hb)) (run_all m ρ)

end Cert.KernelIdeal.HandRun

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.Gcn.lean ====
/-
  The two-layer graph convolution with a linear head, as ONE function of the eight argument arrays, on the extended reals.

  Nodes 0 … 49999, features x : [50000, 128], edges e : [2, 800000] (row 0 the sources, row 1 the targets).
    * `srcIdx e`, `dstIdx e` : the 850000 edge endpoints once every node's self loop (i, i) is appended.
    * `degInv e`             : per node, deg^(-1/2) where deg > 0 and 0 elsewhere; deg counts the edges arriving at the node
                               (a scatter-add of ones at the targets).
    * `edgeNorm e`           : per edge, degInv at its source times degInv at its target (two gathers; an index word that is
                               negative is first moved up by 50000: a negative index counts from the end).
    * `aggregateOn y s d w b`: per node, the sum over the edges arriving at it of  w(edge) * y(source of the edge, ·),  plus the bias row b
                               (gather the rows of y at the sources, scale each by its edge's weight, scatter-add at the targets).
    * `relu`, `dense x w` = x · w  and  `head h w b` = h · w + b  (the bias row repeated down the rows).
    * `forward`              : head (aggregate (dense (relu (aggregate (dense x W1) e b1)) W2) e b2) Wh bh.

  Every stage is spelt with the very operations the reference program applies, so that the reference's result is this function by
  unfolding; what a proof must add is only that a matrix product computed row block by row block is `dense`.
-/
import proofs.«135770_j71751723646993_1_alg».proof.Proof.Gen.ReferenceIdeal
import proofs.«135770_j71751723646993_1_alg».proof.Proof.LibPlainDot
import Idealize.ShloMosaic.Lib.Pipeline.Value
import Idealize.ShloMosaic.Lib.ValueLayout

noncomputable section

namespace Gcn

open Idealize.ShloMosaic Idealize.ShloMosaic.ValueIdx Cert.ReferenceIdeal Cert.ReferenceIdeal.Facts₀

/-- A float array of the given shape, its entries extended reals. -/
abbrev RArr (s : Shape) : Type := FVec Ideal s .f32
/-- An array of 32-bit index words. -/
abbrev WArr (s : Shape) : Type := IVec s 32

/-- The float zero, repeated over a shape. -/
def zeros (s : Shape) (h : S_.BroadcastsInDim s (![] : Fin 0 → Fin s.rank)) : RArr s :=
  broadcastInDim s ![] h (constant (F := Ideal) S_ .f32 0x00000000#32)

/-- The zero arrays the program splats: one entry per node, and one per node and feature. -/
def zeroNodes : RArr S50000 := zeros S50000 bcast_S_S50000
def zeroFeatures : RArr S50000x128 := zeros S50000x128 bcast_S_S50000x128

/-- The sources of the 850000 edges: row 0 of the edge list, then every node once (its self loop). -/
def srcIdx (e : WArr S2x800000) : WArr S850000 :=
  concatenate S850000 0
    [⟨S800000, shapeCast _ (extractStridedSlice S1x800000 ![0, 0] e slices_S2x800000_S1x800000_0_0) shapeCasts_S1x800000_S800000⟩,
     ⟨S50000, iotaInDim S50000 32 0⟩] concatenates_S800000_S50000_S850000_d0

/-- The targets of the 850000 edges: row 1 of the edge list, then every node once. -/
def dstIdx (e : WArr S2x800000) : WArr S850000 :=
  concatenate S850000 0
    [⟨S800000, shapeCast _ (extractStridedSlice S1x800000 ![1, 0] e slices_S2x800000_S1x800000_1_0) shapeCasts_S1x800000_S800000⟩,
     ⟨S50000, iotaInDim S50000 32 0⟩] concatenates_S800000_S50000_S850000_d0

/-- A list of 850000 words as a column. -/
def col {α : Type} (i : S850000.Idx → α) : S850000x1.Idx → α :=
  broadcastInDim S850000x1 ![0] bcast_S850000_S850000x1_0 i

/-- Index words for a gather out of 50000 rows: a negative word is moved up by 50000, then the list is made a column. -/
def wrapCol (i : WArr S850000) : WArr S850000x1 :=
  col (select (cmpi .slt i (broadcastInDim S850000 ![] bcast_S_S850000 (constantI S_ 32 0#32)))
        (addi i (broadcastInDim S850000 ![] bcast_S_S850000 (constantI S_ 32 50000#32))) i)

/-- How many edges arrive at each node. -/
def degree (d : WArr S850000) : RArr S50000 :=
  Host.scatterAdd (F := Ideal) scatter_S50000_S850000x1_S850000_n_0_0_1 zeroNodes (col d)
    (broadcastInDim S850000 ![] bcast_S_S850000 (constant (F := Ideal) S_ .f32 0x3F800000#32))

/-- Where the mask `pos` is set the entry of `r`, elsewhere the scalar `z`. -/
def selectOr (pos : IVec S50000 1) (r : RArr S50000) (z : RArr S_) : RArr S50000 :=
  select pos r (broadcastInDim S50000 ![] bcast_S_S50000 (id z))

/-- The mask of the nodes of positive degree, and deg^(-1/2) computed at every node. -/
def degPos (g : RArr S50000) : IVec S50000 1 := cmpf .ogt g zeroNodes
def degRsqrt (g : RArr S50000) : RArr S50000 := Host.rsqrt (F := Ideal) g
/-- The scalar the program falls back to. -/
def zeroScalar : RArr S_ := constant (F := Ideal) S_ .f32 0x00000000#32

/-- deg^(-1/2) at the nodes of positive degree, 0 at the others. -/
def degInvOf (g : RArr S50000) : RArr S50000 := selectOr (degPos g) (degRsqrt g) zeroScalar

/-- Per edge, from the per-node factors `v`: the factor at the edge's source times the factor at its target. -/
def edgeNormFrom (v : RArr S50000) (s d : WArr S850000) : RArr S850000 :=
  mulf (Host.gather gather_S50000_S850000x1_S850000_n_0_n_n_0_1_1 v (wrapCol s))
    (Host.gather gather_S50000_S850000x1_S850000_n_0_n_n_0_1_1 v (wrapCol d))

/-- Per edge: the inverse root degree of its source times that of its target. -/
def edgeNormOn (s d : WArr S850000) : RArr S850000 := edgeNormFrom (degInvOf (degree d)) s d

/-- Per node: the sum, over the edges arriving at it, of the edge's weight times the source's row of `y`; plus the bias row. -/
def aggregateOn (y : RArr S50000x128) (s d : WArr S850000) (w : RArr S850000) (b : RArr S128) : RArr S50000x128 :=
  addf
    (Host.scatterAdd (F := Ideal) scatter_S50000x128_S850000x1_S850000x128_1_0_0_1 zeroFeatures (col d)
      (mulf (Host.gather gather_S50000x128_S850000x1_S850000x128_1_0_n_n_0_1_1128 y (wrapCol s))
        (broadcastInDim S850000x128 ![0, 1] bcast_S850000x1_S850000x128_0_1 (col w))))
    (broadcastInDim S50000x128 ![0, 1] bcast_S1x128_S50000x128_0_1 (broadcastInDim S1x128 ![1] bcast_S128_S1x128_1 b))

/-- The positive part, entry by entry. -/
def relu (h : RArr S50000x128) : RArr S50000x128 :=
  maximumf h zeroFeatures

/-- x · w for a [50000, 128] by [128, 128] product. -/
def dense (x : RArr S50000x128) (w : RArr S128x128) : RArr S50000x128 :=
  Host.dotGeneral (F := Ideal) dot_S50000x128_S128x128_S50000x128_1_0_0_1_n_n none x w

/-- h · w for the [50000, 128] by [128, 64] product of the head. -/
def denseHead (h : RArr S50000x128) (w : RArr S128x64) : RArr S50000x64 :=
  Host.dotGeneral (F := Ideal) dot_S50000x128_S128x64_S50000x64_1_0_0_1_n_n none h w

/-- A bias of 64 entries as a row repeated 50000 times. -/
def biasRows (b : RArr S64) : RArr S50000x64 :=
  broadcastInDim S50000x64 ![0, 1] bcast_S1x64_S50000x64_0_1 (broadcastInDim S1x64 ![1] bcast_S64_S1x64_1 b)

/-- The head's product with the rows `r` added. -/
def headWith (h : RArr S50000x128) (w : RArr S128x64) (r : RArr S50000x64) : RArr S50000x64 := addf (denseHead h w) r

/-- The linear head: h · w + b. -/
def head (h : RArr S50000x128) (w : RArr S128x64) (b : RArr S64) : RArr S50000x64 :=
  headWith h w (biasRows b)

/-- One graph convolution after the dense transform: aggregate over the edges of `e`. -/
def aggregate (y : RArr S50000x128) (e : WArr S2x800000) (b : RArr S128) : RArr S50000x128 :=
  aggregateOn y (srcIdx e) (dstIdx e) (edgeNormOn (srcIdx e) (dstIdx e)) b

/-- The whole network. -/
def forward (x : RArr S50000x128) (e : WArr S2x800000) (W1 : RArr S128x128) (b1 : RArr S128)
    (W2 : RArr S128x128) (b2 : RArr S128) (Wh : RArr S128x64) (bh : RArr S64) : RArr S50000x64 :=
  head (aggregate (dense (relu (aggregate (dense x W1) e b1)) W2) e b2) Wh bh

/-! ## The two dense products read at an entry: plain sums of products over the 128 shared coordinates -/

theorem dense_apply (x : RArr S50000x128) (w : RArr S128x128) (i : S50000x128.Idx) :
    dense x w i = ∑ k : Fin 128, (x (ix2 (i 0) k) : EReal) * w (ix2 k (i 1)) :=
  PlainDot.dotGeneral_apply 50000 128 128 none _ x w i

theorem denseHead_apply (h : RArr S50000x128) (w : RArr S128x64) (i : S50000x64.Idx) :
    denseHead h w i = ∑ k : Fin 128, (h (ix2 (i 0) k) : EReal) * w (ix2 k (i 1)) :=
  PlainDot.dotGeneral_apply 50000 128 64 none _ h w i

/-- The bias rows at an entry: the bias at the entry's column. -/
theorem biasRows_apply (b : RArr S64) (p : Fin 50000) (q : Fin 64) : biasRows b (ix2 p q) = b (ix1 q) := by
  unfold biasRows
  refine (broadcastInDim_apply _ _ _ (ix2 p q) (ix2 (0 : Fin 1) q) (fun a => ?_)).trans ?_
  · match a with
    | ⟨0, _⟩ => rfl
    | ⟨1, _⟩ => rfl
  · exact broadcastInDim_apply _ _ _ (ix2 (0 : Fin 1) q) (ix1 q) (fun a => by
      match a with
      | ⟨0, _⟩ => rfl)

end Gcn

end
-- ==== Proof.Blocks.lean ====
/-
  What each of the kernel's three matrix-product regions leaves in its result array, on the extended reals.

  A region walks 10 grid points; at point t it reads rows 5000·t … 5000·t + 4999 of its left operand (a block [5000, 128]) and the
  whole right operand, multiplies them into a zero accumulator, and writes the block back to the same rows of the result. At an
  entry (p, c) of the block the product is  sum over k < 128 of  left(5000·t + p, k) · right(k, c):  the rounding to bf16 before the
  product is the identity on the extended reals, and a product into the zero accumulator is the plain sum (`PlainDot`). That is the
  entry (5000·t + p, c) of the whole product `Gcn.dense left right`, whose rows do not mix; the ten blocks tile the 50000 rows, so the
  result array ends as `Gcn.dense` of the arrays the region found at its entry — whatever those are (`V`). The third region adds to
  each row of its [5000, 64] product the one bias row it loaded, which is `Gcn.denseHead` plus that row repeated.
-/
import proofs.«135770_j71751723646993_1_alg».proof.Proof.Gen.KernelIdeal.Frame
import proofs.«135770_j71751723646993_1_alg».proof.Proof.Gcn
import Idealize.ShloMosaic.Lib.Pipeline.Value
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-! ## The bodies' arithmetic at an entry of the block -/

/-- Region 0's body: the product of the two loaded blocks, at entry (p, c). -/
theorem pay0_apply (x0 : Vec Ideal S5000x128 .f32) (x1 : Vec Ideal S128x128 .f32) (p : Fin 5000) (q : Fin 128) :
    k0_pay1 x0 x1 (ix2 p q) = ∑ k : Fin 128, (x0 (ix2 p k) : EReal) * x1 (ix2 k q) := by
  unfold k0_pay1
  exact PlainDot.matmul_zero_apply 5000 128 128 none _ _ (ix2 p q)

/-- Region 1's body: the same product (its left block passes through a reshape to its own shape first). -/
theorem pay1_apply (x0 : Vec Ideal S5000x128 .f32) (x1 : Vec Ideal S128x128 .f32) (p : Fin 5000) (q : Fin 128) :
    k1_pay1 x0 x1 (ix2 p q) = ∑ k : Fin 128, (x0 (ix2 p k) : EReal) * x1 (ix2 k q) := by
  unfold k1_pay1
  refine (PlainDot.matmul_zero_apply 5000 128 128 none _ _ (ix2 p q)).trans ?_
  refine Finset.sum_congr rfl fun k _ => ?_
  exact congrArg (fun z : EReal => z * x1 (ix2 k q)) (congrFun (shapeCast_self x0 shapeCasts_S5000x128_S5000x128) (ix2 p k))

/-- Region 2's body: the [5000, 128] by [128, 64] product plus the loaded bias row, at entry (p, c). -/
theorem pay2_apply (x0 : Vec Ideal S5000x128 .f32) (x1 : Vec Ideal S128x64 .f32) (x2 : Vec Ideal S1x64 .f32) (p : Fin 5000) (q : Fin 64) :
    k2_pay1 x0 x1 x2 (ix2 p q) = (∑ k : Fin 128, (x0 (ix2 p k) : EReal) * x1 (ix2 k q)) + x2 (ix2 (0 : Fin 1) q) := by
  unfold k2_pay1
  refine congrArg₂ (fun a b : EReal => a + b) ?_ ?_
  · refine (PlainDot.matmul_zero_apply 5000 128 64 none _ _ (ix2 p q)).trans ?_
    refine Finset.sum_congr rfl fun k _ => ?_
    exact congrArg (fun z : EReal => z * x1 (ix2 k q)) (congrFun (shapeCast_self x0 shapeCasts_S5000x128_S5000x128) (ix2 p k))
  · refine (broadcastTo_1b_ab_apply _ broadcasts_S1x64_S5000x64 p q).trans ?_
    exact congrFun ((shapeCast_self _ shapeCasts_S1x64_S1x64).trans (shapeCast_self x2 shapeCasts_S1x64_S1x64)) (ix2 (0 : Fin 1) q)

section Region0

variable (V : (c : Dev nD) → (b : Ref sig .tc) → Buf (Elt Ideal) ((c : Thread nD τ).loc b))

/-- The printed index maps over the grid: the left operand's and the result's blocks are the t-th row blocks, the right operand's
    block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region found. -/
theorem flushed0 (c : Dev nD) (t : Fin cfg0.N) :
    (dat0 V c).flushed 2 t = ((cfg0.win 2).blk t).view.read (Elt Ideal) (Gcn.dense (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Gcn.dense (V c main_arg0) (V c main_arg2) (((cfg0.win 2).blk t).view.emb (ix2 p q))
  refine (pay0_apply _ _ p q).trans ((Finset.sum_congr rfl fun k _ => ?_).trans (Gcn.dense_apply _ _ _).symm)
  have h0 : ((cfg0.win 0).blk t).view.emb (ix2 p k) = ix2 (((cfg0.win 2).blk t).view.emb (ix2 p q) 0) k := by
    funext a; apply Fin.ext
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  have h1 : ((cfg0.win 1).blk t).view.emb (ix2 k q) = ix2 k (((cfg0.win 2).blk t).view.emb (ix2 p q) 1) := by
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  exact congrArg₂ (fun a b : EReal => a * b) (congrArg (V c main_arg0) h0) (congrArg (V c main_arg2) h1)

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row r of the result is written back by the point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- REGION 0: the result array ends as the whole product of the left operand and the weights the region found. -/
theorem region0 (c : Dev nD) : (dat0 V c).arrAt 2 cfg0.N = Gcn.dense (V c main_arg0) (V c main_arg2) :=
  (dat0 V c).arrAt_eq_of_cover 2 (Gcn.dense (V c main_arg0) (V c main_arg2)) (fun t _ => flushed0 V c t) cover0

end Region0

section Region1

variable (V : (c : Dev nD) → (b : Ref sig .tc) → Buf (Elt Ideal) ((c : Thread nD τ).loc b))

/-- The printed index maps over the grid: the left operand's and the result's blocks are the t-th row blocks, the right operand's
    block is the whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the region found. -/
theorem flushed1 (c : Dev nD) (t : Fin cfg1.N) :
    (dat1 V c).flushed 2 t = ((cfg1.win 2).blk t).view.read (Elt Ideal) (Gcn.dense (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Gcn.dense (V c main_v47) (V c main_arg4) (((cfg1.win 2).blk t).view.emb (ix2 p q))
  refine (pay1_apply _ _ p q).trans ((Finset.sum_congr rfl fun k _ => ?_).trans (Gcn.dense_apply _ _ _).symm)
  have h0 : ((cfg1.win 0).blk t).view.emb (ix2 p k) = ix2 (((cfg1.win 2).blk t).view.emb (ix2 p q) 0) k := by
    funext a; apply Fin.ext
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * k.val = k.val
      omega
  have h1 : ((cfg1.win 1).blk t).view.emb (ix2 k q) = ix2 k (((cfg1.win 2).blk t).view.emb (ix2 p q) 1) := by
    funext a; apply Fin.ext
    match a with
    | ⟨0, _⟩ =>
      show win1_1.index t (0 : Fin 2) * 128 + 1 * k.val = k.val
      omega
    | ⟨1, _⟩ =>
      show win1_1.index t (1 : Fin 2) * 128 + 1 * q.val = win1_2.index t (1 : Fin 2) * 128 + 1 * q.val
      omega
  exact congrArg₂ (fun a b : EReal => a * b) (congrArg (V c main_v47) h0) (congrArg (V c main_arg4) h1)

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v48).slice (win1_2.rect t)).set ↔ _
  rw [View.set_slice_whole, Rect.mem_set_unit]
  exact Iff.rfl

/-- Every row r of the result is written back by the point r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- REGION 1: likewise, for the second layer's product. -/
theorem region1 (c : Dev nD) : (dat1 V c).arrAt 2 cfg1.N = Gcn.dense (V c main_v47) (V c main_arg4) :=
  (dat1 V c).arrAt_eq_of_cover 2 (Gcn.dense (V c main_v47) (V c main_arg4)) (fun t _ => flushed1 V c t) cover1

end Region1

section Region2

variable (V : (c : Dev nD) → (b : Ref sig .tc) → Buf (Elt Ideal) ((c : Thread nD τ).loc b))

/-- The head's product plus one row `r` of 64 entries added to every row. -/
def headRow (h : Gcn.RArr S50000x128) (w : Gcn.RArr S128x64) (r : Gcn.RArr S1x64) : Gcn.RArr S50000x64 :=
  fun i => Gcn.denseHead h w i + r (ix2 (0 : Fin 1) (i 1))

/-- The printed index maps over the grid: the left operand's and the result's blocks are the t-th row blocks, the weights' and the
    bias row's blocks are the whole arrays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the head's product with the bias row added, of the arrays the region found. -/
theorem flushed2 (c : Dev nD) (t : Fin cfg2.N) :
    (dat2 V c).flushed 3 t
      = ((cfg2.win 3).blk t).view.read (Elt Ideal) (headRow (V c main_v64) (V c main_arg6) (V c main_v65)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx2 t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (ix2 p q)
    = headRow (V c main_v64) (V c main_arg6) (V c main_v65) (((cfg2.win 3).blk t).view.emb (ix2 p q))
  refine (pay2_apply _ _ _ p q).trans ?_
  have h2 : ((cfg2.win 2).blk t).view.emb (ix2 (0 : Fin 1) q) = ix2 (0 : Fin 1) (((cfg2.win 3).blk t).view.emb (ix2 p q) 1) := by
    funext a; apply Fin.ext
    match a with
    | ⟨0, _⟩ =>
      show win2_2.index t (0 : Fin 2) * 1 + 1 * 0 = 0
      omega
    | ⟨1, _⟩ =>
      show win2_2.index t (1 : Fin 2) * 64 + 1 * q.val = win2_3.index t (1 : Fin 2) * 64 + 1 * q.val
      omega
  refine congrArg₂ (fun a b : EReal => a + b)
    ((Finset.sum_congr rfl fun k _ => ?_).trans (Gcn.denseHead_apply _ _ _).symm) (congrArg (V c main_v65) h2)
  have h0 : ((cfg2.win 0).blk t).view.emb (ix2 p k) = ix2 (((cfg2.win 3).blk t).view.emb (ix2 p q) 0) k := by
    funext a; apply Fin.ext
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 128 + 1 * k.val = k.val
      omega
  have h1 : ((cfg2.win 1).blk t).view.emb (ix2 k q) = ix2 k (((cfg2.win 3).blk t).view.emb (ix2 p q) 1) := by
    funext a; apply Fin.ext
    match a with
    | ⟨0, _⟩ =>
      show win2_1.index t (0 : Fin 2) * 128 + 1 * k.val = k.val
      omega
    | ⟨1, _⟩ =>
      show win2_1.index t (1 : Fin 2) * 64 + 1 * q.val = win2_3.index t (1 : Fin 2) * 64 + 1 * q.val
      omega
  exact congrArg₂ (fun a b : EReal => a * b) (congrArg (V c main_v64) h0) (congrArg (V c main_arg6) h1)

/-- An index of the result array is in point t's block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v66).slice (win2_3.rect t)).set ↔ _
  rw [View.set_slice_whole, Rect.mem_set_unit]
  exact Iff.rfl

/-- Every row r of the result is written back by the point r / 5000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, e6, e7⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    omega

/-- REGION 2: the result array ends as the head's product of the arrays the region found, the bias row added to every row. -/
theorem region2 (c : Dev nD) : (dat2 V c).arrAt 3 cfg2.N = headRow (V c main_v64) (V c main_arg6) (V c main_v65) :=
  (dat2 V c).arrAt_eq_of_cover 3 (headRow (V c main_v64) (V c main_arg6) (V c main_v65)) (fun t _ => flushed2 V c t) cover2

end Region2

end Cert.KernelIdeal.Blocks

end
-- ==== Proof.KernelStretches.lean ====
/-
  The idealized kernel's stretches of host operations, each read as a function of the buffer contents `U` it starts from: the
  buffers later parts of the program read are the stages of `Gcn` applied to `U` at the buffers the stretch reads, and a buffer the
  stretch does not write keeps its contents. Each is read off the stretch's operation list.
-/
import proofs.«135770_j71751723646993_1_alg».proof.Proof.Blocks

set_option maxRecDepth 16384

noncomputable section

namespace Cert.KernelIdeal.Stretch

open Idealize.ShloMosaic Idealize.ShloMosaic.TcCoe Idealize.ShloMosaic.ValueIdx Idealize.SL.Sem Idealize.ShloMosaic.StableHlo
open Cert.KernelIdeal Cert.KernelIdeal.Gen

variable (U : Valuation τ sig (Elt Ideal))

/-! ### The stretch `hostOps0` -/

set_option maxHeartbeats 2000000 in
theorem s0_v5 : after (hostOps0 (F := Ideal)) U (Proc.devRef .tc main_v5) = Gcn.srcIdx (U (Proc.devRef .tc main_arg1)) := by
  after_results
  rfl
set_option maxHeartbeats 2000000 in
theorem s0_v6 : after (hostOps0 (F := Ideal)) U (Proc.devRef .tc main_v6) = Gcn.dstIdx (U (Proc.devRef .tc main_arg1)) := by
  after_results
  rfl
set_option maxHeartbeats 2000000 in
theorem s0_v12 : after (hostOps0 (F := Ideal)) U (Proc.devRef .tc main_v12) = Gcn.degPos (Gcn.degree (Gcn.dstIdx (U (Proc.devRef .tc main_arg1)))) := by
  after_results
  rfl
set_option maxHeartbeats 2000000 in
theorem s0_v13 : after (hostOps0 (F := Ideal)) U (Proc.devRef .tc main_v13) = Gcn.degRsqrt (Gcn.degree (Gcn.dstIdx (U (Proc.devRef .tc main_arg1)))) := by
  after_results
  rfl
set_option maxHeartbeats 2000000 in
theorem s0_cst_2 : after (hostOps0 (F := Ideal)) U (Proc.devRef .tc main_cst_2) = Gcn.zeroScalar := by
  after_results
  rfl
theorem s0_keep_arg0 : after (hostOps0 (F := Ideal)) U (Proc.devRef .tc main_arg0) = U (Proc.devRef .tc main_arg0) := by
  after_results
theorem s0_keep_arg2 : after (hostOps0 (F := Ideal)) U (Proc.devRef .tc main_arg2) = U (Proc.devRef .tc main_arg2) := by
  after_results
theorem s0_keep_arg3 : after (hostOps0 (F := Ideal)) U (Proc.devRef .tc main_arg3) = U (Proc.devRef .tc main_arg3) := by
  after_results
theorem s0_keep_arg4 : after (hostOps0 (F := Ideal)) U (Proc.devRef .tc main_arg4) = U (Proc.devRef .tc main_arg4) := by
  after_results
theorem s0_keep_arg5 : after (hostOps0 (F := Ideal)) U (Proc.devRef .tc main_arg5) = U (Proc.devRef .tc main_arg5) := by
  after_results
theorem s0_keep_arg6 : after (hostOps0 (F := Ideal)) U (Proc.devRef .tc main_arg6) = U (Proc.devRef .tc main_arg6) := by
  after_results
theorem s0_keep_arg7 : after (hostOps0 (F := Ideal)) U (Proc.devRef .tc main_arg7) = U (Proc.devRef .tc main_arg7) := by
  after_results

/-! ### The stretch `hostOps0_1` -/

set_option maxHeartbeats 2000000 in
theorem s01_v14 : after (hostOps0_1 (F := Ideal)) U (Proc.devRef .tc main_v14) = Gcn.selectOr (U (Proc.devRef .tc main_v12)) (U (Proc.devRef .tc main_v13)) (U (Proc.devRef .tc main_cst_2)) := by
  after_results_simp
  simp only [TRef.toBuf, TRef.ofBuf, cast_eq]
  rfl
theorem s01_keep_v5 : after (hostOps0_1 (F := Ideal)) U (Proc.devRef .tc main_v5) = U (Proc.devRef .tc main_v5) := by
  after_results_simp
theorem s01_keep_v6 : after (hostOps0_1 (F := Ideal)) U (Proc.devRef .tc main_v6) = U (Proc.devRef .tc main_v6) := by
  after_results_simp
theorem s01_keep_arg0 : after (hostOps0_1 (F := Ideal)) U (Proc.devRef .tc main_arg0) = U (Proc.devRef .tc main_arg0) := by
  after_results_simp
theorem s01_keep_arg2 : after (hostOps0_1 (F := Ideal)) U (Proc.devRef .tc main_arg2) = U (Proc.devRef .tc main_arg2) := by
  after_results_simp
theorem s01_keep_arg3 : after (hostOps0_1 (F := Ideal)) U (Proc.devRef .tc main_arg3) = U (Proc.devRef .tc main_arg3) := by
  after_results_simp
theorem s01_keep_arg4 : after (hostOps0_1 (F := Ideal)) U (Proc.devRef .tc main_arg4) = U (Proc.devRef .tc main_arg4) := by
  after_results_simp
theorem s01_keep_arg5 : after (hostOps0_1 (F := Ideal)) U (Proc.devRef .tc main_arg5) = U (Proc.devRef .tc main_arg5) := by
  after_results_simp
theorem s01_keep_arg6 : after (hostOps0_1 (F := Ideal)) U (Proc.devRef .tc main_arg6) = U (Proc.devRef .tc main_arg6) := by
  after_results_simp
theorem s01_keep_arg7 : after (hostOps0_1 (F := Ideal)) U (Proc.devRef .tc main_arg7) = U (Proc.devRef .tc main_arg7) := by
  after_results_simp

/-! ### The stretch `hostOps0_2` -/

set_option maxHeartbeats 2000000 in
theorem s02_v29 : after (hostOps0_2 (F := Ideal)) U (Proc.devRef .tc main_v29) = Gcn.edgeNormFrom (U (Proc.devRef .tc main_v14)) (U (Proc.devRef .tc main_v5)) (U (Proc.devRef .tc main_v6)) := by
  after_results_simp
  rfl
theorem s02_keep_v5 : after (hostOps0_2 (F := Ideal)) U (Proc.devRef .tc main_v5) = U (Proc.devRef .tc main_v5) := by
  after_results_simp
theorem s02_keep_v6 : after (hostOps0_2 (F := Ideal)) U (Proc.devRef .tc main_v6) = U (Proc.devRef .tc main_v6) := by
  after_results_simp
theorem s02_keep_arg0 : after (hostOps0_2 (F := Ideal)) U (Proc.devRef .tc main_arg0) = U (Proc.devRef .tc main_arg0) := by
  after_results_simp
theorem s02_keep_arg2 : after (hostOps0_2 (F := Ideal)) U (Proc.devRef .tc main_arg2) = U (Proc.devRef .tc main_arg2) := by
  after_results_simp
theorem s02_keep_arg3 : after (hostOps0_2 (F := Ideal)) U (Proc.devRef .tc main_arg3) = U (Proc.devRef .tc main_arg3) := by
  after_results_simp
theorem s02_keep_arg4 : after (hostOps0_2 (F := Ideal)) U (Proc.devRef .tc main_arg4) = U (Proc.devRef .tc main_arg4) := by
  after_results_simp
theorem s02_keep_arg5 : after (hostOps0_2 (F := Ideal)) U (Proc.devRef .tc main_arg5) = U (Proc.devRef .tc main_arg5) := by
  after_results_simp
theorem s02_keep_arg6 : after (hostOps0_2 (F := Ideal)) U (Proc.devRef .tc main_arg6) = U (Proc.devRef .tc main_arg6) := by
  after_results_simp
theorem s02_keep_arg7 : after (hostOps0_2 (F := Ideal)) U (Proc.devRef .tc main_arg7) = U (Proc.devRef .tc main_arg7) := by
  after_results_simp

/-! ### The stretch `hostOps1` -/

set_option maxHeartbeats 2000000 in
theorem s1_v46 : after (hostOps1 (F := Ideal)) U (Proc.devRef .tc main_v46) = Gcn.aggregateOn (U (Proc.devRef .tc main_v30)) (U (Proc.devRef .tc main_v5)) (U (Proc.devRef .tc main_v6)) (U (Proc.devRef .tc main_v29)) (U (Proc.devRef .tc main_arg3)) := by
  after_results_simp
  rfl
theorem s1_keep_v5 : after (hostOps1 (F := Ideal)) U (Proc.devRef .tc main_v5) = U (Proc.devRef .tc main_v5) := by
  after_results_simp
theorem s1_keep_v6 : after (hostOps1 (F := Ideal)) U (Proc.devRef .tc main_v6) = U (Proc.devRef .tc main_v6) := by
  after_results_simp
theorem s1_keep_v29 : after (hostOps1 (F := Ideal)) U (Proc.devRef .tc main_v29) = U (Proc.devRef .tc main_v29) := by
  after_results_simp
theorem s1_keep_arg4 : after (hostOps1 (F := Ideal)) U (Proc.devRef .tc main_arg4) = U (Proc.devRef .tc main_arg4) := by
  after_results_simp
theorem s1_keep_arg5 : after (hostOps1 (F := Ideal)) U (Proc.devRef .tc main_arg5) = U (Proc.devRef .tc main_arg5) := by
  after_results_simp
theorem s1_keep_arg6 : after (hostOps1 (F := Ideal)) U (Proc.devRef .tc main_arg6) = U (Proc.devRef .tc main_arg6) := by
  after_results_simp
theorem s1_keep_arg7 : after (hostOps1 (F := Ideal)) U (Proc.devRef .tc main_arg7) = U (Proc.devRef .tc main_arg7) := by
  after_results_simp

/-! ### The stretch `hostOps1_1` -/

set_option maxHeartbeats 2000000 in
theorem s11_v47 : after (hostOps1_1 (F := Ideal)) U (Proc.devRef .tc main_v47) = Gcn.relu (U (Proc.devRef .tc main_v46)) := by
  after_results_simp
  simp only [TRef.toBuf, TRef.ofBuf, cast_eq]
  rfl
theorem s11_keep_v5 : after (hostOps1_1 (F := Ideal)) U (Proc.devRef .tc main_v5) = U (Proc.devRef .tc main_v5) := by
  after_results_simp
theorem s11_keep_v6 : after (hostOps1_1 (F := Ideal)) U (Proc.devRef .tc main_v6) = U (Proc.devRef .tc main_v6) := by
  after_results_simp
theorem s11_keep_v29 : after (hostOps1_1 (F := Ideal)) U (Proc.devRef .tc main_v29) = U (Proc.devRef .tc main_v29) := by
  after_results_simp
theorem s11_keep_arg4 : after (hostOps1_1 (F := Ideal)) U (Proc.devRef .tc main_arg4) = U (Proc.devRef .tc main_arg4) := by
  after_results_simp
theorem s11_keep_arg5 : after (hostOps1_1 (F := Ideal)) U (Proc.devRef .tc main_arg5) = U (Proc.devRef .tc main_arg5) := by
  after_results_simp
theorem s11_keep_arg6 : after (hostOps1_1 (F := Ideal)) U (Proc.devRef .tc main_arg6) = U (Proc.devRef .tc main_arg6) := by
  after_results_simp
theorem s11_keep_arg7 : after (hostOps1_1 (F := Ideal)) U (Proc.devRef .tc main_arg7) = U (Proc.devRef .tc main_arg7) := by
  after_results_simp

/-! ### The stretch `hostOps2` -/

set_option maxHeartbeats 2000000 in
theorem s2_v64 : after (hostOps2 (F := Ideal)) U (Proc.devRef .tc main_v64) = Gcn.aggregateOn (U (Proc.devRef .tc main_v48)) (U (Proc.devRef .tc main_v5)) (U (Proc.devRef .tc main_v6)) (U (Proc.devRef .tc main_v29)) (U (Proc.devRef .tc main_arg5)) := by
  after_results_simp
  rfl
set_option maxHeartbeats 2000000 in
theorem s2_v65 : after (hostOps2 (F := Ideal)) U (Proc.devRef .tc main_v65) = shapeCast S1x64 (U (Proc.devRef .tc main_arg7)) shapeCasts_S64_S1x64 := by
  after_results_simp
  rfl
theorem s2_keep_arg6 : after (hostOps2 (F := Ideal)) U (Proc.devRef .tc main_arg6) = U (Proc.devRef .tc main_arg6) := by
  after_results_simp

end Cert.KernelIdeal.Stretch

end
-- ==== Proof.KernelWalk.lean ====
/-
  The idealized kernel's buffers at each boundary of its @main, as functions of the launch memory.

  @main is: three stretches of host operations (edge endpoints with self loops, degrees, inverse roots; the select against the
  fallback; the per-edge normalisation), region 0 (x · W1), two stretches (gather, scale, scatter-add, bias; the positive part),
  region 1 (· W2), a stretch (the same aggregation and bias; the head's bias made a row), region 2 (· Wh + the bias row).
  `Gen.W0 … Gen.W9` are the buffer contents at the boundaries. At each boundary the few buffers that later parts read are given in
  closed form: a stretch's results by `Stretch` at the previous boundary's contents, a region's result array by `Blocks`, and every
  buffer a stretch or region does not write is carried over. Composed, the last region's result array is `Gcn.forward` of the
  eight argument arrays.
-/
import proofs.«135770_j71751723646993_1_alg».proof.Proof.KernelStretches

set_option maxRecDepth 16384

noncomputable section

namespace Cert.KernelIdeal.Walk

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## The closed forms -/

/-- Edge sources and targets (self loops appended) and the per-edge normalisation, of the launched edge list. -/
abbrev src (c : Dev nD) : Gcn.WArr S850000 := Gcn.srcIdx (m ((c : Thread nD τ).loc main_arg1))
abbrev dst (c : Dev nD) : Gcn.WArr S850000 := Gcn.dstIdx (m ((c : Thread nD τ).loc main_arg1))
abbrev nrm (c : Dev nD) : Gcn.RArr S850000 := Gcn.edgeNormFrom (Gcn.degInvOf (Gcn.degree (dst m c))) (src m c) (dst m c)
/-- The first layer's transform, aggregate and positive part; the second layer's transform and aggregate. -/
abbrev y1 (c : Dev nD) : Gcn.RArr S50000x128 := Gcn.dense (m ((c : Thread nD τ).loc main_arg0)) (m ((c : Thread nD τ).loc main_arg2))
abbrev a1 (c : Dev nD) : Gcn.RArr S50000x128 := Gcn.aggregateOn (y1 m c) (src m c) (dst m c) (nrm m c) (m ((c : Thread nD τ).loc main_arg3))
abbrev h1 (c : Dev nD) : Gcn.RArr S50000x128 := Gcn.relu (a1 m c)
abbrev y2 (c : Dev nD) : Gcn.RArr S50000x128 := Gcn.dense (h1 m c) (m ((c : Thread nD τ).loc main_arg4))
abbrev h2 (c : Dev nD) : Gcn.RArr S50000x128 := Gcn.aggregateOn (y2 m c) (src m c) (dst m c) (nrm m c) (m ((c : Thread nD τ).loc main_arg5))

/-! ## The boundaries -/

/-! ### After the stretch `hostOps0` -/

theorem W1_v5 (c : Dev nD) : W1 m ρ c (Proc.devRef .tc main_v5) = src m c := Stretch.s0_v5 (W0 m ρ c)
theorem W1_v6 (c : Dev nD) : W1 m ρ c (Proc.devRef .tc main_v6) = dst m c := Stretch.s0_v6 (W0 m ρ c)
theorem W1_v12 (c : Dev nD) : W1 m ρ c (Proc.devRef .tc main_v12) = Gcn.degPos (Gcn.degree (dst m c)) := Stretch.s0_v12 (W0 m ρ c)
theorem W1_v13 (c : Dev nD) : W1 m ρ c (Proc.devRef .tc main_v13) = Gcn.degRsqrt (Gcn.degree (dst m c)) := Stretch.s0_v13 (W0 m ρ c)
theorem W1_cst_2 (c : Dev nD) : W1 m ρ c (Proc.devRef .tc main_cst_2) = Gcn.zeroScalar := Stretch.s0_cst_2 (W0 m ρ c)
theorem W1_arg0 (c : Dev nD) : W1 m ρ c (Proc.devRef .tc main_arg0) = (m ((c : Thread nD τ).loc main_arg0)) := Stretch.s0_keep_arg0 (W0 m ρ c)
theorem W1_arg2 (c : Dev nD) : W1 m ρ c (Proc.devRef .tc main_arg2) = (m ((c : Thread nD τ).loc main_arg2)) := Stretch.s0_keep_arg2 (W0 m ρ c)
theorem W1_arg3 (c : Dev nD) : W1 m ρ c (Proc.devRef .tc main_arg3) = (m ((c : Thread nD τ).loc main_arg3)) := Stretch.s0_keep_arg3 (W0 m ρ c)
theorem W1_arg4 (c : Dev nD) : W1 m ρ c (Proc.devRef .tc main_arg4) = (m ((c : Thread nD τ).loc main_arg4)) := Stretch.s0_keep_arg4 (W0 m ρ c)
theorem W1_arg5 (c : Dev nD) : W1 m ρ c (Proc.devRef .tc main_arg5) = (m ((c : Thread nD τ).loc main_arg5)) := Stretch.s0_keep_arg5 (W0 m ρ c)
theorem W1_arg6 (c : Dev nD) : W1 m ρ c (Proc.devRef .tc main_arg6) = (m ((c : Thread nD τ).loc main_arg6)) := Stretch.s0_keep_arg6 (W0 m ρ c)
theorem W1_arg7 (c : Dev nD) : W1 m ρ c (Proc.devRef .tc main_arg7) = (m ((c : Thread nD τ).loc main_arg7)) := Stretch.s0_keep_arg7 (W0 m ρ c)

/-! ### After the stretch `hostOps0_1` -/

theorem W2_v14 (c : Dev nD) : W2 m ρ c (Proc.devRef .tc main_v14) = Gcn.degInvOf (Gcn.degree (dst m c)) :=
  (Stretch.s01_v14 (W1 m ρ c)).trans (by rw [W1_v12, W1_v13, W1_cst_2] <;> rfl)
theorem W2_v5 (c : Dev nD) : W2 m ρ c (Proc.devRef .tc main_v5) = src m c :=
  (Stretch.s01_keep_v5 (W1 m ρ c)).trans (W1_v5 m ρ c)
theorem W2_v6 (c : Dev nD) : W2 m ρ c (Proc.devRef .tc main_v6) = dst m c :=
  (Stretch.s01_keep_v6 (W1 m ρ c)).trans (W1_v6 m ρ c)
theorem W2_arg0 (c : Dev nD) : W2 m ρ c (Proc.devRef .tc main_arg0) = (m ((c : Thread nD τ).loc main_arg0)) :=
  (Stretch.s01_keep_arg0 (W1 m ρ c)).trans (W1_arg0 m ρ c)
theorem W2_arg2 (c : Dev nD) : W2 m ρ c (Proc.devRef .tc main_arg2) = (m ((c : Thread nD τ).loc main_arg2)) :=
  (Stretch.s01_keep_arg2 (W1 m ρ c)).trans (W1_arg2 m ρ c)
theorem W2_arg3 (c : Dev nD) : W2 m ρ c (Proc.devRef .tc main_arg3) = (m ((c : Thread nD τ).loc main_arg3)) :=
  (Stretch.s01_keep_arg3 (W1 m ρ c)).trans (W1_arg3 m ρ c)
theorem W2_arg4 (c : Dev nD) : W2 m ρ c (Proc.devRef .tc main_arg4) = (m ((c : Thread nD τ).loc main_arg4)) :=
  (Stretch.s01_keep_arg4 (W1 m ρ c)).trans (W1_arg4 m ρ c)
theorem W2_arg5 (c : Dev nD) : W2 m ρ c (Proc.devRef .tc main_arg5) = (m ((c : Thread nD τ).loc main_arg5)) :=
  (Stretch.s01_keep_arg5 (W1 m ρ c)).trans (W1_arg5 m ρ c)
theorem W2_arg6 (c : Dev nD) : W2 m ρ c (Proc.devRef .tc main_arg6) = (m ((c : Thread nD τ).loc main_arg6)) :=
  (Stretch.s01_keep_arg6 (W1 m ρ c)).trans (W1_arg6 m ρ c)
theorem W2_arg7 (c : Dev nD) : W2 m ρ c (Proc.devRef .tc main_arg7) = (m ((c : Thread nD τ).loc main_arg7)) :=
  (Stretch.s01_keep_arg7 (W1 m ρ c)).trans (W1_arg7 m ρ c)

/-! ### After the stretch `hostOps0_2` -/

theorem W3_v29 (c : Dev nD) : W3 m ρ c (Proc.devRef .tc main_v29) = nrm m c :=
  (Stretch.s02_v29 (W2 m ρ c)).trans (by rw [W2_v14, W2_v5, W2_v6] <;> rfl)
theorem W3_v5 (c : Dev nD) : W3 m ρ c (Proc.devRef .tc main_v5) = src m c :=
  (Stretch.s02_keep_v5 (W2 m ρ c)).trans (W2_v5 m ρ c)
theorem W3_v6 (c : Dev nD) : W3 m ρ c (Proc.devRef .tc main_v6) = dst m c :=
  (Stretch.s02_keep_v6 (W2 m ρ c)).trans (W2_v6 m ρ c)
theorem W3_arg0 (c : Dev nD) : W3 m ρ c (Proc.devRef .tc main_arg0) = (m ((c : Thread nD τ).loc main_arg0)) :=
  (Stretch.s02_keep_arg0 (W2 m ρ c)).trans (W2_arg0 m ρ c)
theorem W3_arg2 (c : Dev nD) : W3 m ρ c (Proc.devRef .tc main_arg2) = (m ((c : Thread nD τ).loc main_arg2)) :=
  (Stretch.s02_keep_arg2 (W2 m ρ c)).trans (W2_arg2 m ρ c)
theorem W3_arg3 (c : Dev nD) : W3 m ρ c (Proc.devRef .tc main_arg3) = (m ((c : Thread nD τ).loc main_arg3)) :=
  (Stretch.s02_keep_arg3 (W2 m ρ c)).trans (W2_arg3 m ρ c)
theorem W3_arg4 (c : Dev nD) : W3 m ρ c (Proc.devRef .tc main_arg4) = (m ((c : Thread nD τ).loc main_arg4)) :=
  (Stretch.s02_keep_arg4 (W2 m ρ c)).trans (W2_arg4 m ρ c)
theorem W3_arg5 (c : Dev nD) : W3 m ρ c (Proc.devRef .tc main_arg5) = (m ((c : Thread nD τ).loc main_arg5)) :=
  (Stretch.s02_keep_arg5 (W2 m ρ c)).trans (W2_arg5 m ρ c)
theorem W3_arg6 (c : Dev nD) : W3 m ρ c (Proc.devRef .tc main_arg6) = (m ((c : Thread nD τ).loc main_arg6)) :=
  (Stretch.s02_keep_arg6 (W2 m ρ c)).trans (W2_arg6 m ρ c)
theorem W3_arg7 (c : Dev nD) : W3 m ρ c (Proc.devRef .tc main_arg7) = (m ((c : Thread nD τ).loc main_arg7)) :=
  (Stretch.s02_keep_arg7 (W2 m ρ c)).trans (W2_arg7 m ρ c)

/-! ### After region 0 -/

theorem W4_v30 (c : Dev nD) : W4 m ρ c (Proc.devRef .tc main_v30) = y1 m c := by
  refine (W4_arr m ρ c 2).trans ((Blocks.region0 (V3 m ρ) c).trans ?_)
  show Gcn.dense (W3 m ρ c (Proc.devRef .tc main_arg0)) (W3 m ρ c (Proc.devRef .tc main_arg2)) = _
  rw [W3_arg0, W3_arg2]
theorem W4_v5 (c : Dev nD) : W4 m ρ c (Proc.devRef .tc main_v5) = src m c :=
  (W4_of_ne m ρ c main_v5 (by decide)).trans (W3_v5 m ρ c)
theorem W4_v6 (c : Dev nD) : W4 m ρ c (Proc.devRef .tc main_v6) = dst m c :=
  (W4_of_ne m ρ c main_v6 (by decide)).trans (W3_v6 m ρ c)
theorem W4_v29 (c : Dev nD) : W4 m ρ c (Proc.devRef .tc main_v29) = nrm m c :=
  (W4_of_ne m ρ c main_v29 (by decide)).trans (W3_v29 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)

/-! ### After the stretch `hostOps1` -/

theorem W5_v46 (c : Dev nD) : W5 m ρ c (Proc.devRef .tc main_v46) = a1 m c :=
  (Stretch.s1_v46 (W4 m ρ c)).trans (by rw [W4_v30, W4_v5, W4_v6, W4_v29, W4_arg3] <;> rfl)
theorem W5_v5 (c : Dev nD) : W5 m ρ c (Proc.devRef .tc main_v5) = src m c :=
  (Stretch.s1_keep_v5 (W4 m ρ c)).trans (W4_v5 m ρ c)
theorem W5_v6 (c : Dev nD) : W5 m ρ c (Proc.devRef .tc main_v6) = dst m c :=
  (Stretch.s1_keep_v6 (W4 m ρ c)).trans (W4_v6 m ρ c)
theorem W5_v29 (c : Dev nD) : W5 m ρ c (Proc.devRef .tc main_v29) = nrm m c :=
  (Stretch.s1_keep_v29 (W4 m ρ c)).trans (W4_v29 m ρ c)
theorem W5_arg4 (c : Dev nD) : W5 m ρ c (Proc.devRef .tc main_arg4) = (m ((c : Thread nD τ).loc main_arg4)) :=
  (Stretch.s1_keep_arg4 (W4 m ρ c)).trans (W4_arg4 m ρ c)
theorem W5_arg5 (c : Dev nD) : W5 m ρ c (Proc.devRef .tc main_arg5) = (m ((c : Thread nD τ).loc main_arg5)) :=
  (Stretch.s1_keep_arg5 (W4 m ρ c)).trans (W4_arg5 m ρ c)
theorem W5_arg6 (c : Dev nD) : W5 m ρ c (Proc.devRef .tc main_arg6) = (m ((c : Thread nD τ).loc main_arg6)) :=
  (Stretch.s1_keep_arg6 (W4 m ρ c)).trans (W4_arg6 m ρ c)
theorem W5_arg7 (c : Dev nD) : W5 m ρ c (Proc.devRef .tc main_arg7) = (m ((c : Thread nD τ).loc main_arg7)) :=
  (Stretch.s1_keep_arg7 (W4 m ρ c)).trans (W4_arg7 m ρ c)

/-! ### After the stretch `hostOps1_1` -/

theorem W6_v47 (c : Dev nD) : W6 m ρ c (Proc.devRef .tc main_v47) = h1 m c :=
  (Stretch.s11_v47 (W5 m ρ c)).trans (by rw [W5_v46] <;> rfl)
theorem W6_v5 (c : Dev nD) : W6 m ρ c (Proc.devRef .tc main_v5) = src m c :=
  (Stretch.s11_keep_v5 (W5 m ρ c)).trans (W5_v5 m ρ c)
theorem W6_v6 (c : Dev nD) : W6 m ρ c (Proc.devRef .tc main_v6) = dst m c :=
  (Stretch.s11_keep_v6 (W5 m ρ c)).trans (W5_v6 m ρ c)
theorem W6_v29 (c : Dev nD) : W6 m ρ c (Proc.devRef .tc main_v29) = nrm m c :=
  (Stretch.s11_keep_v29 (W5 m ρ c)).trans (W5_v29 m ρ c)
theorem W6_arg4 (c : Dev nD) : W6 m ρ c (Proc.devRef .tc main_arg4) = (m ((c : Thread nD τ).loc main_arg4)) :=
  (Stretch.s11_keep_arg4 (W5 m ρ c)).trans (W5_arg4 m ρ c)
theorem W6_arg5 (c : Dev nD) : W6 m ρ c (Proc.devRef .tc main_arg5) = (m ((c : Thread nD τ).loc main_arg5)) :=
  (Stretch.s11_keep_arg5 (W5 m ρ c)).trans (W5_arg5 m ρ c)
theorem W6_arg6 (c : Dev nD) : W6 m ρ c (Proc.devRef .tc main_arg6) = (m ((c : Thread nD τ).loc main_arg6)) :=
  (Stretch.s11_keep_arg6 (W5 m ρ c)).trans (W5_arg6 m ρ c)
theorem W6_arg7 (c : Dev nD) : W6 m ρ c (Proc.devRef .tc main_arg7) = (m ((c : Thread nD τ).loc main_arg7)) :=
  (Stretch.s11_keep_arg7 (W5 m ρ c)).trans (W5_arg7 m ρ c)

/-! ### After region 1 -/

theorem W7_v48 (c : Dev nD) : W7 m ρ c (Proc.devRef .tc main_v48) = y2 m c := by
  refine (W7_arr m ρ c 2).trans ((Blocks.region1 (V6 m ρ) c).trans ?_)
  show Gcn.dense (W6 m ρ c (Proc.devRef .tc main_v47)) (W6 m ρ c (Proc.devRef .tc main_arg4)) = _
  rw [W6_v47, W6_arg4]
theorem W7_v5 (c : Dev nD) : W7 m ρ c (Proc.devRef .tc main_v5) = src m c :=
  (W7_of_ne m ρ c main_v5 (by decide)).trans (W6_v5 m ρ c)
theorem W7_v6 (c : Dev nD) : W7 m ρ c (Proc.devRef .tc main_v6) = dst m c :=
  (W7_of_ne m ρ c main_v6 (by decide)).trans (W6_v6 m ρ c)
theorem W7_v29 (c : Dev nD) : W7 m ρ c (Proc.devRef .tc main_v29) = nrm m c :=
  (W7_of_ne m ρ c main_v29 (by decide)).trans (W6_v29 m ρ c)
theorem W7_arg5 (c : Dev nD) : W7 m ρ c (Proc.devRef .tc main_arg5) = (m ((c : Thread nD τ).loc main_arg5)) :=
  (W7_of_ne m ρ c main_arg5 (by decide)).trans (W6_arg5 m ρ c)
theorem W7_arg6 (c : Dev nD) : W7 m ρ c (Proc.devRef .tc main_arg6) = (m ((c : Thread nD τ).loc main_arg6)) :=
  (W7_of_ne m ρ c main_arg6 (by decide)).trans (W6_arg6 m ρ c)
theorem W7_arg7 (c : Dev nD) : W7 m ρ c (Proc.devRef .tc main_arg7) = (m ((c : Thread nD τ).loc main_arg7)) :=
  (W7_of_ne m ρ c main_arg7 (by decide)).trans (W6_arg7 m ρ c)

/-! ### After the stretch `hostOps2` -/

theorem W8_v64 (c : Dev nD) : W8 m ρ c (Proc.devRef .tc main_v64) = h2 m c :=
  (Stretch.s2_v64 (W7 m ρ c)).trans (by rw [W7_v48, W7_v5, W7_v6, W7_v29, W7_arg5] <;> rfl)
theorem W8_v65 (c : Dev nD) : W8 m ρ c (Proc.devRef .tc main_v65) = shapeCast S1x64 (m ((c : Thread nD τ).loc main_arg7)) shapeCasts_S64_S1x64 :=
  (Stretch.s2_v65 (W7 m ρ c)).trans (by rw [W7_arg7] <;> rfl)
theorem W8_arg6 (c : Dev nD) : W8 m ρ c (Proc.devRef .tc main_arg6) = (m ((c : Thread nD τ).loc main_arg6)) :=
  (Stretch.s2_keep_arg6 (W7 m ρ c)).trans (W7_arg6 m ρ c)

/-! ### After region 2: the result -/

/-- A bias of 64 entries, made a row and added to every row of the head's product, is the head. -/
theorem headRow_eq (h : Gcn.RArr S50000x128) (w : Gcn.RArr S128x64) (b : Gcn.RArr S64) :
    Blocks.headRow h w (shapeCast S1x64 b shapeCasts_S64_S1x64) = Gcn.head h w b := by
  funext i
  obtain ⟨p, q, rfl⟩ : ∃ (p : Fin 50000) (q : Fin 64), i = ix2 p q := ⟨i 0, i 1, eq_ix2 i⟩
  show (Gcn.denseHead h w (ix2 p q) : EReal) + shapeCast S1x64 b shapeCasts_S64_S1x64 (ix2 (0 : Fin 1) q)
    = Gcn.denseHead h w (ix2 p q) + Gcn.biasRows b (ix2 p q)
  rw [Gcn.biasRows_apply]
  exact congrArg (fun z : EReal => Gcn.denseHead h w (ix2 p q) + z) (shapeCast_a_1a_apply b shapeCasts_S64_S1x64 (0 : Fin 1) q)

/-- THE KERNEL'S RESULT: the last region's result array is the network of the argument arrays. -/
theorem W9_v66 (c : Dev nD) : W9 m ρ c (Proc.devRef .tc main_v66)
    = Gcn.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((Blocks.region2 (V8 m ρ) c).trans ?_)
  show Blocks.headRow (W8 m ρ c (Proc.devRef .tc main_v64)) (W8 m ρ c (Proc.devRef .tc main_arg6)) (W8 m ρ c (Proc.devRef .tc main_v65)) = _
  rw [W8_v64, W8_arg6, W8_v65, headRow_eq]
  rfl

end Cert.KernelIdeal.Walk

end
-- ==== Proof.RefRun.lean ====
/-
  The reference program, run: it is a straight line of 87 host operations (the two helper functions it calls, a select against a
  constant and a maximum with zero, stand with their three operations each at their call sites), so every weakly fair execution
  terminates with each buffer at the fold of the operations over the launch memory. Read at the result buffer, that fold is the
  graph convolution `Gcn.forward` of the eight argument arrays: each stage of `Gcn` is spelt with the operations the program
  applies, in the program's order, so the two terms agree by unfolding. The arguments are written by no operation.
-/
import proofs.«135770_j71751723646993_1_alg».proof.Proof.Gen.ReferenceIdeal
import proofs.«135770_j71751723646993_1_alg».proof.Proof.Gcn
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v5 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v5 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    binary main_v64 main_arg6 main_v65 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v66 (broadcastInDim S1x64 ![1] bcast_S64_S1x64_1 : (⟨S64, .f32⟩ : BufTy).Contents (Elt F) → (⟨S1x64, .f32⟩ : BufTy).Contents (Elt F)),
    unary main_v66 main_v67 (broadcastInDim S50000x64 ![0, 1] bcast_S1x64_S50000x64_0_1 : (⟨S1x64, .f32⟩ : BufTy).Contents (Elt F) → (⟨S50000x64, .f32⟩ : BufTy).Contents (Elt F)),
    binary main_v65 main_v67 main_v68 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- The program is the sequence of its operations. -/
theorem main_eq (c : Dev nD) : main (F := F) c = seq ops := rfl

/-- No buffer and no semaphore of this program is scoped to a region. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the TensorCore only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

set_option maxRecDepth 8192 in
set_option maxHeartbeats 4000000 in
/-- Every weakly fair execution terminates, each buffer at the fold of the operations over the launch memory. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.LibAfterAppend.lean ====
/-
  Running a line of host operations in two parts: the buffer contents after the operations `l₁ ++ l₂` are the contents after
  `l₂`, started from the contents after `l₁`. (The contents after a line are the fold of each operation's result over the
  contents before it, so this is the fold of an appended list.)
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefStretches.lean ====
/-
  The reference program's 87 operations cut into nine consecutive stretches — the same cuts as the idealized kernel's @main has
  around its three regions, the reference's three dense products standing where the regions stand — and each stretch read as a
  function of the buffer contents `U` it starts from: the buffers later stretches read are the stages of `Gcn` applied to `U` at
  the buffers the stretch reads, and a buffer the stretch does not write keeps its contents.
-/
import proofs.«135770_j71751723646993_1_alg».proof.Proof.RefRun
import proofs.«135770_j71751723646993_1_alg».proof.Proof.LibAfterAppend

set_option maxRecDepth 16384

noncomputable section

namespace Cert.ReferenceIdeal.Stretch

open Cert.ReferenceIdeal Cert.ReferenceIdeal.Gen Idealize.ShloMosaic Idealize.ShloMosaic.TcCoe Idealize.SL.Sem Idealize.ShloMosaic.StableHlo
open Cert.ReferenceIdeal.HandRun

section Lists
variable {F : FTy → Type} [FloatOps F]

/-- Edge endpoints with self loops, the degrees, the mask of positive degrees and the inverse roots. -/
abbrev r0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- The select against the fallback scalar (the helper function's three operations). -/
abbrev r01 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The two gathers of the per-node factors and their product: the per-edge normalisation. -/
abbrev r02 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first layer's dense product. -/
abbrev rd0 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first aggregation and its bias. -/
abbrev r1 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The positive part (the helper function's three operations). -/
abbrev r11 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer's dense product. -/
abbrev rd1 : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second aggregation and its bias. -/
abbrev r2 : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v5 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v5 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)) ]

/-- The head: product, the bias as rows, the sum. -/
abbrev rtail : List (HloOp τ sig (Elt F)) :=
  [ binary main_v64 main_arg6 main_v65 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v66 (broadcastInDim S1x64 ![1] bcast_S64_S1x64_1 : (⟨S64, .f32⟩ : BufTy).Contents (Elt F) → (⟨S1x64, .f32⟩ : BufTy).Contents (Elt F)),
    unary main_v66 main_v67 (broadcastInDim S50000x64 ![0, 1] bcast_S1x64_S50000x64_0_1 : (⟨S1x64, .f32⟩ : BufTy).Contents (Elt F) → (⟨S50000x64, .f32⟩ : BufTy).Contents (Elt F)),
    binary main_v65 main_v67 main_v68 (addf : (⟨S50000x64, .f32⟩ : BufTy).Contents (Elt F) → (⟨S50000x64, .f32⟩ : BufTy).Contents (Elt F) → (⟨S50000x64, .f32⟩ : BufTy).Contents (Elt F)) ]

/-- The program's operations are the nine stretches in order. -/
theorem ops_split : (ops : List (HloOp τ sig (Elt F))) = r0 ++ r01 ++ r02 ++ rd0 ++ r1 ++ r11 ++ rd1 ++ r2 ++ rtail := rfl

/-- So the contents after the program are the contents after the nine stretches, one after the other. -/
theorem after_ops (V : Valuation τ sig (Elt F)) :
    after ops V = after rtail (after r2 (after rd1 (after r11 (after r1 (after rd0 (after r02 (after r01 (after r0 V)))))))) := by
  rw [ops_split]
  simp only [after_append]

end Lists

variable (U : Valuation τ sig (Elt Ideal))

/-! ### The stretch `r0` -/

set_option maxHeartbeats 2000000 in
theorem s0_v5 : after (r0 (F := Ideal)) U (Proc.devRef .tc main_v5) = Gcn.srcIdx (U (Proc.devRef .tc main_arg1)) := by
  after_results
  rfl
set_option maxHeartbeats 2000000 in
theorem s0_v6 : after (r0 (F := Ideal)) U (Proc.devRef .tc main_v6) = Gcn.dstIdx (U (Proc.devRef .tc main_arg1)) := by
  after_results
  rfl
set_option maxHeartbeats 2000000 in
theorem s0_v12 : after (r0 (F := Ideal)) U (Proc.devRef .tc main_v12) = Gcn.degPos (Gcn.degree (Gcn.dstIdx (U (Proc.devRef .tc main_arg1)))) := by
  after_results
  rfl
set_option maxHeartbeats 2000000 in
theorem s0_v13 : after (r0 (F := Ideal)) U (Proc.devRef .tc main_v13) = Gcn.degRsqrt (Gcn.degree (Gcn.dstIdx (U (Proc.devRef .tc main_arg1)))) := by
  after_results
  rfl
set_option maxHeartbeats 2000000 in
theorem s0_cst_2 : after (r0 (F := Ideal)) U (Proc.devRef .tc main_cst_2) = Gcn.zeroScalar := by
  after_results
  rfl
theorem s0_keep_arg0 : after (r0 (F := Ideal)) U (Proc.devRef .tc main_arg0) = U (Proc.devRef .tc main_arg0) := by
  after_results
theorem s0_keep_arg2 : after (r0 (F := Ideal)) U (Proc.devRef .tc main_arg2) = U (Proc.devRef .tc main_arg2) := by
  after_results
theorem s0_keep_arg3 : after (r0 (F := Ideal)) U (Proc.devRef .tc main_arg3) = U (Proc.devRef .tc main_arg3) := by
  after_results
theorem s0_keep_arg4 : after (r0 (F := Ideal)) U (Proc.devRef .tc main_arg4) = U (Proc.devRef .tc main_arg4) := by
  after_results
theorem s0_keep_arg5 : after (r0 (F := Ideal)) U (Proc.devRef .tc main_arg5) = U (Proc.devRef .tc main_arg5) := by
  after_results
theorem s0_keep_arg6 : after (r0 (F := Ideal)) U (Proc.devRef .tc main_arg6) = U (Proc.devRef .tc main_arg6) := by
  after_results
theorem s0_keep_arg7 : after (r0 (F := Ideal)) U (Proc.devRef .tc main_arg7) = U (Proc.devRef .tc main_arg7) := by
  after_results

/-! ### The stretch `r01` -/

set_option maxHeartbeats 2000000 in
theorem s01_v14 : after (r01 (F := Ideal)) U (Proc.devRef .tc main_v14) = Gcn.selectOr (U (Proc.devRef .tc main_v12)) (U (Proc.devRef .tc main_v13)) (U (Proc.devRef .tc main_cst_2)) := by
  after_results_simp
  simp only [TRef.toBuf, TRef.ofBuf, cast_eq]
  rfl
theorem s01_keep_v5 : after (r01 (F := Ideal)) U (Proc.devRef .tc main_v5) = U (Proc.devRef .tc main_v5) := by
  after_results_simp
theorem s01_keep_v6 : after (r01 (F := Ideal)) U (Proc.devRef .tc main_v6) = U (Proc.devRef .tc main_v6) := by
  after_results_simp
theorem s01_keep_arg0 : after (r01 (F := Ideal)) U (Proc.devRef .tc main_arg0) = U (Proc.devRef .tc main_arg0) := by
  after_results_simp
theorem s01_keep_arg2 : after (r01 (F := Ideal)) U (Proc.devRef .tc main_arg2) = U (Proc.devRef .tc main_arg2) := by
  after_results_simp
theorem s01_keep_arg3 : after (r01 (F := Ideal)) U (Proc.devRef .tc main_arg3) = U (Proc.devRef .tc main_arg3) := by
  after_results_simp
theorem s01_keep_arg4 : after (r01 (F := Ideal)) U (Proc.devRef .tc main_arg4) = U (Proc.devRef .tc main_arg4) := by
  after_results_simp
theorem s01_keep_arg5 : after (r01 (F := Ideal)) U (Proc.devRef .tc main_arg5) = U (Proc.devRef .tc main_arg5) := by
  after_results_simp
theorem s01_keep_arg6 : after (r01 (F := Ideal)) U (Proc.devRef .tc main_arg6) = U (Proc.devRef .tc main_arg6) := by
  after_results_simp
theorem s01_keep_arg7 : after (r01 (F := Ideal)) U (Proc.devRef .tc main_arg7) = U (Proc.devRef .tc main_arg7) := by
  after_results_simp

/-! ### The stretch `r02` -/

set_option maxHeartbeats 2000000 in
theorem s02_v29 : after (r02 (F := Ideal)) U (Proc.devRef .tc main_v29) = Gcn.edgeNormFrom (U (Proc.devRef .tc main_v14)) (U (Proc.devRef .tc main_v5)) (U (Proc.devRef .tc main_v6)) := by
  after_results_simp
  rfl
theorem s02_keep_v5 : after (r02 (F := Ideal)) U (Proc.devRef .tc main_v5) = U (Proc.devRef .tc main_v5) := by
  after_results_simp
theorem s02_keep_v6 : after (r02 (F := Ideal)) U (Proc.devRef .tc main_v6) = U (Proc.devRef .tc main_v6) := by
  after_results_simp
theorem s02_keep_arg0 : after (r02 (F := Ideal)) U (Proc.devRef .tc main_arg0) = U (Proc.devRef .tc main_arg0) := by
  after_results_simp
theorem s02_keep_arg2 : after (r02 (F := Ideal)) U (Proc.devRef .tc main_arg2) = U (Proc.devRef .tc main_arg2) := by
  after_results_simp
theorem s02_keep_arg3 : after (r02 (F := Ideal)) U (Proc.devRef .tc main_arg3) = U (Proc.devRef .tc main_arg3) := by
  after_results_simp
theorem s02_keep_arg4 : after (r02 (F := Ideal)) U (Proc.devRef .tc main_arg4) = U (Proc.devRef .tc main_arg4) := by
  after_results_simp
theorem s02_keep_arg5 : after (r02 (F := Ideal)) U (Proc.devRef .tc main_arg5) = U (Proc.devRef .tc main_arg5) := by
  after_results_simp
theorem s02_keep_arg6 : after (r02 (F := Ideal)) U (Proc.devRef .tc main_arg6) = U (Proc.devRef .tc main_arg6) := by
  after_results_simp
theorem s02_keep_arg7 : after (r02 (F := Ideal)) U (Proc.devRef .tc main_arg7) = U (Proc.devRef .tc main_arg7) := by
  after_results_simp

/-! ### The stretch `rd0` -/

set_option maxHeartbeats 2000000 in
theorem sd0_v30 : after (rd0 (F := Ideal)) U (Proc.devRef .tc main_v30) = Gcn.dense (U (Proc.devRef .tc main_arg0)) (U (Proc.devRef .tc main_arg2)) := by
  after_results_simp
  rfl
theorem sd0_keep_v5 : after (rd0 (F := Ideal)) U (Proc.devRef .tc main_v5) = U (Proc.devRef .tc main_v5) := by
  after_results_simp
theorem sd0_keep_v6 : after (rd0 (F := Ideal)) U (Proc.devRef .tc main_v6) = U (Proc.devRef .tc main_v6) := by
  after_results_simp
theorem sd0_keep_v29 : after (rd0 (F := Ideal)) U (Proc.devRef .tc main_v29) = U (Proc.devRef .tc main_v29) := by
  after_results_simp
theorem sd0_keep_arg3 : after (rd0 (F := Ideal)) U (Proc.devRef .tc main_arg3) = U (Proc.devRef .tc main_arg3) := by
  after_results_simp
theorem sd0_keep_arg4 : after (rd0 (F := Ideal)) U (Proc.devRef .tc main_arg4) = U (Proc.devRef .tc main_arg4) := by
  after_results_simp
theorem sd0_keep_arg5 : after (rd0 (F := Ideal)) U (Proc.devRef .tc main_arg5) = U (Proc.devRef .tc main_arg5) := by
  after_results_simp
theorem sd0_keep_arg6 : after (rd0 (F := Ideal)) U (Proc.devRef .tc main_arg6) = U (Proc.devRef .tc main_arg6) := by
  after_results_simp
theorem sd0_keep_arg7 : after (rd0 (F := Ideal)) U (Proc.devRef .tc main_arg7) = U (Proc.devRef .tc main_arg7) := by
  after_results_simp

/-! ### The stretch `r1` -/

set_option maxHeartbeats 2000000 in
theorem s1_v46 : after (r1 (F := Ideal)) U (Proc.devRef .tc main_v46) = Gcn.aggregateOn (U (Proc.devRef .tc main_v30)) (U (Proc.devRef .tc main_v5)) (U (Proc.devRef .tc main_v6)) (U (Proc.devRef .tc main_v29)) (U (Proc.devRef .tc main_arg3)) := by
  after_results_simp
  rfl
theorem s1_keep_v5 : after (r1 (F := Ideal)) U (Proc.devRef .tc main_v5) = U (Proc.devRef .tc main_v5) := by
  after_results_simp
theorem s1_keep_v6 : after (r1 (F := Ideal)) U (Proc.devRef .tc main_v6) = U (Proc.devRef .tc main_v6) := by
  after_results_simp
theorem s1_keep_v29 : after (r1 (F := Ideal)) U (Proc.devRef .tc main_v29) = U (Proc.devRef .tc main_v29) := by
  after_results_simp
theorem s1_keep_arg4 : after (r1 (F := Ideal)) U (Proc.devRef .tc main_arg4) = U (Proc.devRef .tc main_arg4) := by
  after_results_simp
theorem s1_keep_arg5 : after (r1 (F := Ideal)) U (Proc.devRef .tc main_arg5) = U (Proc.devRef .tc main_arg5) := by
  after_results_simp
theorem s1_keep_arg6 : after (r1 (F := Ideal)) U (Proc.devRef .tc main_arg6) = U (Proc.devRef .tc main_arg6) := by
  after_results_simp
theorem s1_keep_arg7 : after (r1 (F := Ideal)) U (Proc.devRef .tc main_arg7) = U (Proc.devRef .tc main_arg7) := by
  after_results_simp

/-! ### The stretch `r11` -/

set_option maxHeartbeats 2000000 in
theorem s11_v47 : after (r11 (F := Ideal)) U (Proc.devRef .tc main_v47) = Gcn.relu (U (Proc.devRef .tc main_v46)) := by
  after_results_simp
  simp only [TRef.toBuf, TRef.ofBuf, cast_eq]
  rfl
theorem s11_keep_v5 : after (r11 (F := Ideal)) U (Proc.devRef .tc main_v5) = U (Proc.devRef .tc main_v5) := by
  after_results_simp
theorem s11_keep_v6 : after (r11 (F := Ideal)) U (Proc.devRef .tc main_v6) = U (Proc.devRef .tc main_v6) := by
  after_results_simp
theorem s11_keep_v29 : after (r11 (F := Ideal)) U (Proc.devRef .tc main_v29) = U (Proc.devRef .tc main_v29) := by
  after_results_simp
theorem s11_keep_arg4 : after (r11 (F := Ideal)) U (Proc.devRef .tc main_arg4) = U (Proc.devRef .tc main_arg4) := by
  after_results_simp
theorem s11_keep_arg5 : after (r11 (F := Ideal)) U (Proc.devRef .tc main_arg5) = U (Proc.devRef .tc main_arg5) := by
  after_results_simp
theorem s11_keep_arg6 : after (r11 (F := Ideal)) U (Proc.devRef .tc main_arg6) = U (Proc.devRef .tc main_arg6) := by
  after_results_simp
theorem s11_keep_arg7 : after (r11 (F := Ideal)) U (Proc.devRef .tc main_arg7) = U (Proc.devRef .tc main_arg7) := by
  after_results_simp

/-! ### The stretch `rd1` -/

set_option maxHeartbeats 2000000 in
theorem sd1_v48 : after (rd1 (F := Ideal)) U (Proc.devRef .tc main_v48) = Gcn.dense (U (Proc.devRef .tc main_v47)) (U (Proc.devRef .tc main_arg4)) := by
  after_results_simp
  rfl
theorem sd1_keep_v5 : after (rd1 (F := Ideal)) U (Proc.devRef .tc main_v5) = U (Proc.devRef .tc main_v5) := by
  after_results_simp
theorem sd1_keep_v6 : after (rd1 (F := Ideal)) U (Proc.devRef .tc main_v6) = U (Proc.devRef .tc main_v6) := by
  after_results_simp
theorem sd1_keep_v29 : after (rd1 (F := Ideal)) U (Proc.devRef .tc main_v29) = U (Proc.devRef .tc main_v29) := by
  after_results_simp
theorem sd1_keep_arg5 : after (rd1 (F := Ideal)) U (Proc.devRef .tc main_arg5) = U (Proc.devRef .tc main_arg5) := by
  after_results_simp
theorem sd1_keep_arg6 : after (rd1 (F := Ideal)) U (Proc.devRef .tc main_arg6) = U (Proc.devRef .tc main_arg6) := by
  after_results_simp
theorem sd1_keep_arg7 : after (rd1 (F := Ideal)) U (Proc.devRef .tc main_arg7) = U (Proc.devRef .tc main_arg7) := by
  after_results_simp

/-! ### The stretch `r2` -/

set_option maxHeartbeats 2000000 in
theorem s2_v64 : after (r2 (F := Ideal)) U (Proc.devRef .tc main_v64) = Gcn.aggregateOn (U (Proc.devRef .tc main_v48)) (U (Proc.devRef .tc main_v5)) (U (Proc.devRef .tc main_v6)) (U (Proc.devRef .tc main_v29)) (U (Proc.devRef .tc main_arg5)) := by
  after_results_simp
  rfl
theorem s2_keep_arg6 : after (r2 (F := Ideal)) U (Proc.devRef .tc main_arg6) = U (Proc.devRef .tc main_arg6) := by
  after_results_simp
theorem s2_keep_arg7 : after (r2 (F := Ideal)) U (Proc.devRef .tc main_arg7) = U (Proc.devRef .tc main_arg7) := by
  after_results_simp

/-! ### The stretch `rtail` -/

set_option maxHeartbeats 2000000 in
theorem s3_v68 : after (rtail (F := Ideal)) U (Proc.devRef .tc main_v68) = Gcn.head (U (Proc.devRef .tc main_v64)) (U (Proc.devRef .tc main_arg6)) (U (Proc.devRef .tc main_arg7)) := by
  after_results_simp
  rfl

end Cert.ReferenceIdeal.Stretch

end
-- ==== Proof.RefWalk.lean ====
/-
  The reference program's result, read: its 87 operations are nine stretches run one after the other (`Stretch.after_ops`); at each
  boundary the few buffers later stretches read are given in closed form, a stretch's results by `Stretch` at the previous
  boundary's contents, every buffer a stretch does not write carried over. Composed, the result buffer ends as `Gcn.forward` of the
  eight argument arrays as launched. No operation writes an argument.
-/
import proofs.«135770_j71751723646993_1_alg».proof.Proof.RefStretches

set_option maxRecDepth 16384

noncomputable section

namespace Cert.ReferenceIdeal.Walk

open Cert.ReferenceIdeal Cert.ReferenceIdeal.Gen Idealize.ShloMosaic Idealize.ShloMosaic.TcCoe Idealize.SL.Sem Idealize.ShloMosaic.StableHlo
open Cert.ReferenceIdeal.HandRun Cert.ReferenceIdeal.Stretch

variable (m : (ℓ : Loc nD τ sig) → Buf (Elt Ideal) ℓ) (ρ : Dev nD → PrngReg)

/-! ## The closed forms -/

/-- Edge sources and targets (self loops appended) and the per-edge normalisation, of the launched edge list. -/
abbrev src (c : Dev nD) : Gcn.WArr S850000 := Gcn.srcIdx (m ((c.tc : Thread nD τ).loc main_arg1))
abbrev dst (c : Dev nD) : Gcn.WArr S850000 := Gcn.dstIdx (m ((c.tc : Thread nD τ).loc main_arg1))
abbrev nrm (c : Dev nD) : Gcn.RArr S850000 := Gcn.edgeNormFrom (Gcn.degInvOf (Gcn.degree (dst m c))) (src m c) (dst m c)
/-- The first layer's transform, aggregate and positive part; the second layer's transform and aggregate; the network. -/
abbrev y1 (c : Dev nD) : Gcn.RArr S50000x128 := Gcn.dense (m ((c.tc : Thread nD τ).loc main_arg0)) (m ((c.tc : Thread nD τ).loc main_arg2))
abbrev a1 (c : Dev nD) : Gcn.RArr S50000x128 := Gcn.aggregateOn (y1 m c) (src m c) (dst m c) (nrm m c) (m ((c.tc : Thread nD τ).loc main_arg3))
abbrev h1 (c : Dev nD) : Gcn.RArr S50000x128 := Gcn.relu (a1 m c)
abbrev y2 (c : Dev nD) : Gcn.RArr S50000x128 := Gcn.dense (h1 m c) (m ((c.tc : Thread nD τ).loc main_arg4))
abbrev h2 (c : Dev nD) : Gcn.RArr S50000x128 := Gcn.aggregateOn (y2 m c) (src m c) (dst m c) (nrm m c) (m ((c.tc : Thread nD τ).loc main_arg5))
abbrev net (c : Dev nD) : Gcn.RArr S50000x64 := Gcn.head (h2 m c) (m ((c.tc : Thread nD τ).loc main_arg6)) (m ((c.tc : Thread nD τ).loc main_arg7))

/-! ## The buffer contents at the boundaries -/

abbrev Z0 (c : Dev nD) : Valuation τ sig (Elt Ideal) := launchContents m c
abbrev Z1 (c : Dev nD) : Valuation τ sig (Elt Ideal) := after r0 (Z0 m c)
abbrev Z2 (c : Dev nD) : Valuation τ sig (Elt Ideal) := after r01 (Z1 m c)
abbrev Z3 (c : Dev nD) : Valuation τ sig (Elt Ideal) := after r02 (Z2 m c)
abbrev Z4 (c : Dev nD) : Valuation τ sig (Elt Ideal) := after rd0 (Z3 m c)
abbrev Z5 (c : Dev nD) : Valuation τ sig (Elt Ideal) := after r1 (Z4 m c)
abbrev Z6 (c : Dev nD) : Valuation τ sig (Elt Ideal) := after r11 (Z5 m c)
abbrev Z7 (c : Dev nD) : Valuation τ sig (Elt Ideal) := after rd1 (Z6 m c)
abbrev Z8 (c : Dev nD) : Valuation τ sig (Elt Ideal) := after r2 (Z7 m c)
abbrev Z9 (c : Dev nD) : Valuation τ sig (Elt Ideal) := after rtail (Z8 m c)

/-! ### After the stretch `r0` -/

theorem Z1_v5 (c : Dev nD) : Z1 m c (Proc.devRef .tc main_v5) = src m c := Stretch.s0_v5 (Z0 m c)
theorem Z1_v6 (c : Dev nD) : Z1 m c (Proc.devRef .tc main_v6) = dst m c := Stretch.s0_v6 (Z0 m c)
theorem Z1_v12 (c : Dev nD) : Z1 m c (Proc.devRef .tc main_v12) = Gcn.degPos (Gcn.degree (dst m c)) := Stretch.s0_v12 (Z0 m c)
theorem Z1_v13 (c : Dev nD) : Z1 m c (Proc.devRef .tc main_v13) = Gcn.degRsqrt (Gcn.degree (dst m c)) := Stretch.s0_v13 (Z0 m c)
theorem Z1_cst_2 (c : Dev nD) : Z1 m c (Proc.devRef .tc main_cst_2) = Gcn.zeroScalar := Stretch.s0_cst_2 (Z0 m c)
theorem Z1_arg0 (c : Dev nD) : Z1 m c (Proc.devRef .tc main_arg0) = (m ((c.tc : Thread nD τ).loc main_arg0)) := Stretch.s0_keep_arg0 (Z0 m c)
theorem Z1_arg2 (c : Dev nD) : Z1 m c (Proc.devRef .tc main_arg2) = (m ((c.tc : Thread nD τ).loc main_arg2)) := Stretch.s0_keep_arg2 (Z0 m c)
theorem Z1_arg3 (c : Dev nD) : Z1 m c (Proc.devRef .tc main_arg3) = (m ((c.tc : Thread nD τ).loc main_arg3)) := Stretch.s0_keep_arg3 (Z0 m c)
theorem Z1_arg4 (c : Dev nD) : Z1 m c (Proc.devRef .tc main_arg4) = (m ((c.tc : Thread nD τ).loc main_arg4)) := Stretch.s0_keep_arg4 (Z0 m c)
theorem Z1_arg5 (c : Dev nD) : Z1 m c (Proc.devRef .tc main_arg5) = (m ((c.tc : Thread nD τ).loc main_arg5)) := Stretch.s0_keep_arg5 (Z0 m c)
theorem Z1_arg6 (c : Dev nD) : Z1 m c (Proc.devRef .tc main_arg6) = (m ((c.tc : Thread nD τ).loc main_arg6)) := Stretch.s0_keep_arg6 (Z0 m c)
theorem Z1_arg7 (c : Dev nD) : Z1 m c (Proc.devRef .tc main_arg7) = (m ((c.tc : Thread nD τ).loc main_arg7)) := Stretch.s0_keep_arg7 (Z0 m c)

/-! ### After the stretch `r01` -/

theorem Z2_v14 (c : Dev nD) : Z2 m c (Proc.devRef .tc main_v14) = Gcn.degInvOf (Gcn.degree (dst m c)) :=
  (Stretch.s01_v14 (Z1 m c)).trans (by rw [Z1_v12, Z1_v13, Z1_cst_2] <;> rfl)
theorem Z2_v5 (c : Dev nD) : Z2 m c (Proc.devRef .tc main_v5) = src m c :=
  (Stretch.s01_keep_v5 (Z1 m c)).trans (Z1_v5 m c)
theorem Z2_v6 (c : Dev nD) : Z2 m c (Proc.devRef .tc main_v6) = dst m c :=
  (Stretch.s01_keep_v6 (Z1 m c)).trans (Z1_v6 m c)
theorem Z2_arg0 (c : Dev nD) : Z2 m c (Proc.devRef .tc main_arg0) = (m ((c.tc : Thread nD τ).loc main_arg0)) :=
  (Stretch.s01_keep_arg0 (Z1 m c)).trans (Z1_arg0 m c)
theorem Z2_arg2 (c : Dev nD) : Z2 m c (Proc.devRef .tc main_arg2) = (m ((c.tc : Thread nD τ).loc main_arg2)) :=
  (Stretch.s01_keep_arg2 (Z1 m c)).trans (Z1_arg2 m c)
theorem Z2_arg3 (c : Dev nD) : Z2 m c (Proc.devRef .tc main_arg3) = (m ((c.tc : Thread nD τ).loc main_arg3)) :=
  (Stretch.s01_keep_arg3 (Z1 m c)).trans (Z1_arg3 m c)
theorem Z2_arg4 (c : Dev nD) : Z2 m c (Proc.devRef .tc main_arg4) = (m ((c.tc : Thread nD τ).loc main_arg4)) :=
  (Stretch.s01_keep_arg4 (Z1 m c)).trans (Z1_arg4 m c)
theorem Z2_arg5 (c : Dev nD) : Z2 m c (Proc.devRef .tc main_arg5) = (m ((c.tc : Thread nD τ).loc main_arg5)) :=
  (Stretch.s01_keep_arg5 (Z1 m c)).trans (Z1_arg5 m c)
theorem Z2_arg6 (c : Dev nD) : Z2 m c (Proc.devRef .tc main_arg6) = (m ((c.tc : Thread nD τ).loc main_arg6)) :=
  (Stretch.s01_keep_arg6 (Z1 m c)).trans (Z1_arg6 m c)
theorem Z2_arg7 (c : Dev nD) : Z2 m c (Proc.devRef .tc main_arg7) = (m ((c.tc : Thread nD τ).loc main_arg7)) :=
  (Stretch.s01_keep_arg7 (Z1 m c)).trans (Z1_arg7 m c)

/-! ### After the stretch `r02` -/

theorem Z3_v29 (c : Dev nD) : Z3 m c (Proc.devRef .tc main_v29) = nrm m c :=
  (Stretch.s02_v29 (Z2 m c)).trans (by rw [Z2_v14, Z2_v5, Z2_v6] <;> rfl)
theorem Z3_v5 (c : Dev nD) : Z3 m c (Proc.devRef .tc main_v5) = src m c :=
  (Stretch.s02_keep_v5 (Z2 m c)).trans (Z2_v5 m c)
theorem Z3_v6 (c : Dev nD) : Z3 m c (Proc.devRef .tc main_v6) = dst m c :=
  (Stretch.s02_keep_v6 (Z2 m c)).trans (Z2_v6 m c)
theorem Z3_arg0 (c : Dev nD) : Z3 m c (Proc.devRef .tc main_arg0) = (m ((c.tc : Thread nD τ).loc main_arg0)) :=
  (Stretch.s02_keep_arg0 (Z2 m c)).trans (Z2_arg0 m c)
theorem Z3_arg2 (c : Dev nD) : Z3 m c (Proc.devRef .tc main_arg2) = (m ((c.tc : Thread nD τ).loc main_arg2)) :=
  (Stretch.s02_keep_arg2 (Z2 m c)).trans (Z2_arg2 m c)
theorem Z3_arg3 (c : Dev nD) : Z3 m c (Proc.devRef .tc main_arg3) = (m ((c.tc : Thread nD τ).loc main_arg3)) :=
  (Stretch.s02_keep_arg3 (Z2 m c)).trans (Z2_arg3 m c)
theorem Z3_arg4 (c : Dev nD) : Z3 m c (Proc.devRef .tc main_arg4) = (m ((c.tc : Thread nD τ).loc main_arg4)) :=
  (Stretch.s02_keep_arg4 (Z2 m c)).trans (Z2_arg4 m c)
theorem Z3_arg5 (c : Dev nD) : Z3 m c (Proc.devRef .tc main_arg5) = (m ((c.tc : Thread nD τ).loc main_arg5)) :=
  (Stretch.s02_keep_arg5 (Z2 m c)).trans (Z2_arg5 m c)
theorem Z3_arg6 (c : Dev nD) : Z3 m c (Proc.devRef .tc main_arg6) = (m ((c.tc : Thread nD τ).loc main_arg6)) :=
  (Stretch.s02_keep_arg6 (Z2 m c)).trans (Z2_arg6 m c)
theorem Z3_arg7 (c : Dev nD) : Z3 m c (Proc.devRef .tc main_arg7) = (m ((c.tc : Thread nD τ).loc main_arg7)) :=
  (Stretch.s02_keep_arg7 (Z2 m c)).trans (Z2_arg7 m c)

/-! ### After the stretch `rd0` -/

theorem Z4_v30 (c : Dev nD) : Z4 m c (Proc.devRef .tc main_v30) = y1 m c :=
  (Stretch.sd0_v30 (Z3 m c)).trans (by rw [Z3_arg0, Z3_arg2] <;> rfl)
theorem Z4_v5 (c : Dev nD) : Z4 m c (Proc.devRef .tc main_v5) = src m c :=
  (Stretch.sd0_keep_v5 (Z3 m c)).trans (Z3_v5 m c)
theorem Z4_v6 (c : Dev nD) : Z4 m c (Proc.devRef .tc main_v6) = dst m c :=
  (Stretch.sd0_keep_v6 (Z3 m c)).trans (Z3_v6 m c)
theorem Z4_v29 (c : Dev nD) : Z4 m c (Proc.devRef .tc main_v29) = nrm m c :=
  (Stretch.sd0_keep_v29 (Z3 m c)).trans (Z3_v29 m c)
theorem Z4_arg3 (c : Dev nD) : Z4 m c (Proc.devRef .tc main_arg3) = (m ((c.tc : Thread nD τ).loc main_arg3)) :=
  (Stretch.sd0_keep_arg3 (Z3 m c)).trans (Z3_arg3 m c)
theorem Z4_arg4 (c : Dev nD) : Z4 m c (Proc.devRef .tc main_arg4) = (m ((c.tc : Thread nD τ).loc main_arg4)) :=
  (Stretch.sd0_keep_arg4 (Z3 m c)).trans (Z3_arg4 m c)
theorem Z4_arg5 (c : Dev nD) : Z4 m c (Proc.devRef .tc main_arg5) = (m ((c.tc : Thread nD τ).loc main_arg5)) :=
  (Stretch.sd0_keep_arg5 (Z3 m c)).trans (Z3_arg5 m c)
theorem Z4_arg6 (c : Dev nD) : Z4 m c (Proc.devRef .tc main_arg6) = (m ((c.tc : Thread nD τ).loc main_arg6)) :=
  (Stretch.sd0_keep_arg6 (Z3 m c)).trans (Z3_arg6 m c)
theorem Z4_arg7 (c : Dev nD) : Z4 m c (Proc.devRef .tc main_arg7) = (m ((c.tc : Thread nD τ).loc main_arg7)) :=
  (Stretch.sd0_keep_arg7 (Z3 m c)).trans (Z3_arg7 m c)

/-! ### After the stretch `r1` -/

theorem Z5_v46 (c : Dev nD) : Z5 m c (Proc.devRef .tc main_v46) = a1 m c :=
  (Stretch.s1_v46 (Z4 m c)).trans (by rw [Z4_v30, Z4_v5, Z4_v6, Z4_v29, Z4_arg3] <;> rfl)
theorem Z5_v5 (c : Dev nD) : Z5 m c (Proc.devRef .tc main_v5) = src m c :=
  (Stretch.s1_keep_v5 (Z4 m c)).trans (Z4_v5 m c)
theorem Z5_v6 (c : Dev nD) : Z5 m c (Proc.devRef .tc main_v6) = dst m c :=
  (Stretch.s1_keep_v6 (Z4 m c)).trans (Z4_v6 m c)
theorem Z5_v29 (c : Dev nD) : Z5 m c (Proc.devRef .tc main_v29) = nrm m c :=
  (Stretch.s1_keep_v29 (Z4 m c)).trans (Z4_v29 m c)
theorem Z5_arg4 (c : Dev nD) : Z5 m c (Proc.devRef .tc main_arg4) = (m ((c.tc : Thread nD τ).loc main_arg4)) :=
  (Stretch.s1_keep_arg4 (Z4 m c)).trans (Z4_arg4 m c)
theorem Z5_arg5 (c : Dev nD) : Z5 m c (Proc.devRef .tc main_arg5) = (m ((c.tc : Thread nD τ).loc main_arg5)) :=
  (Stretch.s1_keep_arg5 (Z4 m c)).trans (Z4_arg5 m c)
theorem Z5_arg6 (c : Dev nD) : Z5 m c (Proc.devRef .tc main_arg6) = (m ((c.tc : Thread nD τ).loc main_arg6)) :=
  (Stretch.s1_keep_arg6 (Z4 m c)).trans (Z4_arg6 m c)
theorem Z5_arg7 (c : Dev nD) : Z5 m c (Proc.devRef .tc main_arg7) = (m ((c.tc : Thread nD τ).loc main_arg7)) :=
  (Stretch.s1_keep_arg7 (Z4 m c)).trans (Z4_arg7 m c)

/-! ### After the stretch `r11` -/

theorem Z6_v47 (c : Dev nD) : Z6 m c (Proc.devRef .tc main_v47) = h1 m c :=
  (Stretch.s11_v47 (Z5 m c)).trans (by rw [Z5_v46] <;> rfl)
theorem Z6_v5 (c : Dev nD) : Z6 m c (Proc.devRef .tc main_v5) = src m c :=
  (Stretch.s11_keep_v5 (Z5 m c)).trans (Z5_v5 m c)
theorem Z6_v6 (c : Dev nD) : Z6 m c (Proc.devRef .tc main_v6) = dst m c :=
  (Stretch.s11_keep_v6 (Z5 m c)).trans (Z5_v6 m c)
theorem Z6_v29 (c : Dev nD) : Z6 m c (Proc.devRef .tc main_v29) = nrm m c :=
  (Stretch.s11_keep_v29 (Z5 m c)).trans (Z5_v29 m c)
theorem Z6_arg4 (c : Dev nD) : Z6 m c (Proc.devRef .tc main_arg4) = (m ((c.tc : Thread nD τ).loc main_arg4)) :=
  (Stretch.s11_keep_arg4 (Z5 m c)).trans (Z5_arg4 m c)
theorem Z6_arg5 (c : Dev nD) : Z6 m c (Proc.devRef .tc main_arg5) = (m ((c.tc : Thread nD τ).loc main_arg5)) :=
  (Stretch.s11_keep_arg5 (Z5 m c)).trans (Z5_arg5 m c)
theorem Z6_arg6 (c : Dev nD) : Z6 m c (Proc.devRef .tc main_arg6) = (m ((c.tc : Thread nD τ).loc main_arg6)) :=
  (Stretch.s11_keep_arg6 (Z5 m c)).trans (Z5_arg6 m c)
theorem Z6_arg7 (c : Dev nD) : Z6 m c (Proc.devRef .tc main_arg7) = (m ((c.tc : Thread nD τ).loc main_arg7)) :=
  (Stretch.s11_keep_arg7 (Z5 m c)).trans (Z5_arg7 m c)

/-! ### After the stretch `rd1` -/

theorem Z7_v48 (c : Dev nD) : Z7 m c (Proc.devRef .tc main_v48) = y2 m c :=
  (Stretch.sd1_v48 (Z6 m c)).trans (by rw [Z6_v47, Z6_arg4] <;> rfl)
theorem Z7_v5 (c : Dev nD) : Z7 m c (Proc.devRef .tc main_v5) = src m c :=
  (Stretch.sd1_keep_v5 (Z6 m c)).trans (Z6_v5 m c)
theorem Z7_v6 (c : Dev nD) : Z7 m c (Proc.devRef .tc main_v6) = dst m c :=
  (Stretch.sd1_keep_v6 (Z6 m c)).trans (Z6_v6 m c)
theorem Z7_v29 (c : Dev nD) : Z7 m c (Proc.devRef .tc main_v29) = nrm m c :=
  (Stretch.sd1_keep_v29 (Z6 m c)).trans (Z6_v29 m c)
theorem Z7_arg5 (c : Dev nD) : Z7 m c (Proc.devRef .tc main_arg5) = (m ((c.tc : Thread nD τ).loc main_arg5)) :=
  (Stretch.sd1_keep_arg5 (Z6 m c)).trans (Z6_arg5 m c)
theorem Z7_arg6 (c : Dev nD) : Z7 m c (Proc.devRef .tc main_arg6) = (m ((c.tc : Thread nD τ).loc main_arg6)) :=
  (Stretch.sd1_keep_arg6 (Z6 m c)).trans (Z6_arg6 m c)
theorem Z7_arg7 (c : Dev nD) : Z7 m c (Proc.devRef .tc main_arg7) = (m ((c.tc : Thread nD τ).loc main_arg7)) :=
  (Stretch.sd1_keep_arg7 (Z6 m c)).trans (Z6_arg7 m c)

/-! ### After the stretch `r2` -/

theorem Z8_v64 (c : Dev nD) : Z8 m c (Proc.devRef .tc main_v64) = h2 m c :=
  (Stretch.s2_v64 (Z7 m c)).trans (by rw [Z7_v48, Z7_v5, Z7_v6, Z7_v29, Z7_arg5] <;> rfl)
theorem Z8_arg6 (c : Dev nD) : Z8 m c (Proc.devRef .tc main_arg6) = (m ((c.tc : Thread nD τ).loc main_arg6)) :=
  (Stretch.s2_keep_arg6 (Z7 m c)).trans (Z7_arg6 m c)
theorem Z8_arg7 (c : Dev nD) : Z8 m c (Proc.devRef .tc main_arg7) = (m ((c.tc : Thread nD τ).loc main_arg7)) :=
  (Stretch.s2_keep_arg7 (Z7 m c)).trans (Z7_arg7 m c)

/-! ### After the stretch `rtail` -/

theorem Z9_v68 (c : Dev nD) : Z9 m c (Proc.devRef .tc main_v68) = net m c :=
  (Stretch.s3_v68 (Z8 m c)).trans (by rw [Z8_v64, Z8_arg6, Z8_arg7] <;> rfl)

/-! ## The result and the arguments after the whole program -/

/-- THE REFERENCE'S RESULT: the result buffer after the program is the network of the argument arrays. -/
theorem result_eq (c : Dev nD) : after (ops (F := Ideal)) (launchContents m c) (Proc.devRef .tc main_v68)
    = Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]
  exact Z9_v68 m c

set_option maxHeartbeats 4000000 in
/-- No operation writes argument 0. -/
theorem kept_arg0 (c : Dev nD) : after (ops (F := Ideal)) (launchContents m c) (Proc.devRef .tc main_arg0) = (m ((c.tc : Thread nD τ).loc main_arg0)) := by
  after_results_simp <;> rfl

set_option maxHeartbeats 4000000 in
/-- No operation writes argument 1. -/
theorem kept_arg1 (c : Dev nD) : after (ops (F := Ideal)) (launchContents m c) (Proc.devRef .tc main_arg1) = (m ((c.tc : Thread nD τ).loc main_arg1)) := by
  after_results_simp <;> rfl

set_option maxHeartbeats 4000000 in
/-- No operation writes argument 2. -/
theorem kept_arg2 (c : Dev nD) : after (ops (F := Ideal)) (launchContents m c) (Proc.devRef .tc main_arg2) = (m ((c.tc : Thread nD τ).loc main_arg2)) := by
  after_results_simp <;> rfl

set_option maxHeartbeats 4000000 in
/-- No operation writes argument 3. -/
theorem kept_arg3 (c : Dev nD) : after (ops (F := Ideal)) (launchContents m c) (Proc.devRef .tc main_arg3) = (m ((c.tc : Thread nD τ).loc main_arg3)) := by
  after_results_simp <;> rfl

set_option maxHeartbeats 4000000 in
/-- No operation writes argument 4. -/
theorem kept_arg4 (c : Dev nD) : after (ops (F := Ideal)) (launchContents m c) (Proc.devRef .tc main_arg4) = (m ((c.tc : Thread nD τ).loc main_arg4)) := by
  after_results_simp <;> rfl

set_option maxHeartbeats 4000000 in
/-- No operation writes argument 5. -/
theorem kept_arg5 (c : Dev nD) : after (ops (F := Ideal)) (launchContents m c) (Proc.devRef .tc main_arg5) = (m ((c.tc : Thread nD τ).loc main_arg5)) := by
  after_results_simp <;> rfl

set_option maxHeartbeats 4000000 in
/-- No operation writes argument 6. -/
theorem kept_arg6 (c : Dev nD) : after (ops (F := Ideal)) (launchContents m c) (Proc.devRef .tc main_arg6) = (m ((c.tc : Thread nD τ).loc main_arg6)) := by
  after_results_simp <;> rfl

set_option maxHeartbeats 4000000 in
/-- No operation writes argument 7. -/
theorem kept_arg7 (c : Dev nD) : after (ops (F := Ideal)) (launchContents m c) (Proc.devRef .tc main_arg7) = (m ((c.tc : Thread nD τ).loc main_arg7)) := by
  after_results_simp <;> rfl

/-- The run, read: the result at the network of the arguments, the arguments unchanged. -/
theorem run : θ_run defs (onTc (τ := τ) (main (F := Ideal))) ⟨m, fun _ => 0, ρ⟩ fun r => ∀ c : Dev nD,
      r.2.mem ((c.tc : Thread nD τ).loc main_v68) = Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v68).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c)⟩)
    (run_all m ρ)

end Cert.ReferenceIdeal.Walk

end
-- ==== Proof.lean ====
/-
  A two-layer graph convolution with a linear head, on 50000 nodes and 800000 edges plus one self loop per node:

      out = A (relu (A (x · W1) + b1) · W2) + b2) · Wh + bh,      A y = the per-node sum, over the edges arriving at the node,
                                                                  of  deg^(-1/2)(source) · deg^(-1/2)(target) · y(source, ·).

  The kernel program computes the three dense products x · W1, h1 · W2, h2 · Wh + bh in three TensorCore regions, each over ten
  blocks of 5000 rows, rounding the operands to bf16 before a product into a zero accumulator; everything else (the edge lists,
  degrees, gathers, scatter-adds, biases, the positive part) it does with the same host operations as the reference, which
  computes the three products as whole `dot_general`s. On the extended reals the rounding is the identity and a product into the
  zero accumulator is the plain sum over the 128 shared coordinates, so a block's entry (p, c) at grid point t is the entry
  (5000·t + p, c) of the whole product: rows do not mix, and the ten blocks tile the rows (`PlainDot`, `Blocks`). Around the
  products both programs apply the same operations to the same arrays, so both results are the one function `Gcn.forward` of the
  eight arguments (`Walk` on each side). No law beyond re-indexing a finite sum is used, so nothing needs to be finite and the
  precondition is never opened. The idealization rewrote no operation, so it is preserved trivially. The three frames: the two
  kernel programs' are the generated ones; the reference's is its run with the result dropped.
-/
import proofs.«135770_j71751723646993_1_alg».proof.Defs
import proofs.«135770_j71751723646993_1_alg».proof.Proof.Gen.Kernel
import proofs.«135770_j71751723646993_1_alg».proof.Proof.Gen.Kernel.Skeleton
import proofs.«135770_j71751723646993_1_alg».proof.Proof.Gen.Kernel.Launch
import proofs.«135770_j71751723646993_1_alg».proof.Proof.Gen.Kernel.Points
import proofs.«135770_j71751723646993_1_alg».proof.Proof.Gen.Kernel.Frame
import proofs.«135770_j71751723646993_1_alg».proof.Proof.Gen.KernelIdeal
import proofs.«135770_j71751723646993_1_alg».proof.Proof.Gen.KernelIdeal.Skeleton
import proofs.«135770_j71751723646993_1_alg».proof.Proof.Gen.KernelIdeal.Launch
import proofs.«135770_j71751723646993_1_alg».proof.Proof.Gen.KernelIdeal.Points
import proofs.«135770_j71751723646993_1_alg».proof.Proof.Gen.KernelIdeal.Frame
import proofs.«135770_j71751723646993_1_alg».proof.Proof.Gen.ReferenceIdeal
import proofs.«135770_j71751723646993_1_alg».proof.Proof.Gen.Pre_finite_inputs
import proofs.«135770_j71751723646993_1_alg».proof.Proof.KernelRun
import proofs.«135770_j71751723646993_1_alg».proof.Proof.KernelWalk
import proofs.«135770_j71751723646993_1_alg».proof.Proof.RefWalk
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Walk.run m ρ)

/-- The idealization rewrote no operation. -/
theorem preserves : Cert.preserves_Kernel_KernelIdeal := trivial

/-- The idealized kernel's run, read: its result array ends as the network of the arguments, the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v66) = Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c =>
    ⟨(h c _ (Cert.KernelIdeal.Gen.mem_uc Cert.KernelIdeal.main_v66 (by decide))).trans (Cert.KernelIdeal.Walk.W9_v66 m ρ c),
     (h c _ (Cert.KernelIdeal.Gen.mem_uc Cert.KernelIdeal.main_arg0 (by decide))).trans (Cert.KernelIdeal.Gen.W9_main_arg0 m ρ c),
     (h c _ (Cert.KernelIdeal.Gen.mem_uc Cert.KernelIdeal.main_arg1 (by decide))).trans (Cert.KernelIdeal.Gen.W9_main_arg1 m ρ c),
     (h c _ (Cert.KernelIdeal.Gen.mem_uc Cert.KernelIdeal.main_arg2 (by decide))).trans (Cert.KernelIdeal.Gen.W9_main_arg2 m ρ c),
     (h c _ (Cert.KernelIdeal.Gen.mem_uc Cert.KernelIdeal.main_arg3 (by decide))).trans (Cert.KernelIdeal.Gen.W9_main_arg3 m ρ c),
     (h c _ (Cert.KernelIdeal.Gen.mem_uc Cert.KernelIdeal.main_arg4 (by decide))).trans (Cert.KernelIdeal.Gen.W9_main_arg4 m ρ c),
     (h c _ (Cert.KernelIdeal.Gen.mem_uc Cert.KernelIdeal.main_arg5 (by decide))).trans (Cert.KernelIdeal.Gen.W9_main_arg5 m ρ c),
     (h c _ (Cert.KernelIdeal.Gen.mem_uc Cert.KernelIdeal.main_arg6 (by decide))).trans (Cert.KernelIdeal.Gen.W9_main_arg6 m ρ c),
     (h c _ (Cert.KernelIdeal.Gen.mem_uc Cert.KernelIdeal.main_arg7 (by decide))).trans (Cert.KernelIdeal.Gen.W9_main_arg7 m ρ c)⟩)
    (Cert.KernelIdeal.HandRun.run_all m ρ)

/-- From memories agreeing on the arguments both idealized programs end with the network of the arguments in their result. -/
theorem algebraic : Cert.algebraic_KernelIdeal_ReferenceIdeal := by
  intro m ρ m' ρ' _ hagree
  refine ⟨fun c => Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), kernel_run m ρ, ?_⟩
  refine (θ_run Cert.ReferenceIdeal.defs _ _).mono (fun _ h c => ⟨(h c).1.trans ?_, (h c).2⟩) (Cert.ReferenceIdeal.Walk.run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
